-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v86)) (v1 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_v96) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000x16 : Shape := ⟨2, ![600000, 16]⟩
abbrev S100000 : Shape := ⟨1, ![100000]⟩
abbrev S3x128x128 : Shape := ⟨3, ![3, 128, 128]⟩
abbrev S3x128 : Shape := ⟨2, ![3, 128]⟩
abbrev S3x16x128 : Shape := ⟨3, ![3, 16, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x16 : S_.BroadcastsInDim S600000x16 (![] : Fin 0 → Fin S600000x16.rank)
  reducesTo_S600000x16_S_d0_1 : S600000x16.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3x16x128 : S_.BroadcastsInDim S3x16x128 (![] : Fin 0 → Fin S3x16x128.rank)
  reducesTo_S3x16x128_S_d0_1_2 : S3x16x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S3x16x128 .f32) (main_arg7 : FVec F S3x128 .f32) (main_arg8 : FVec F S128x128 .f32) (main_arg9 : FVec F S128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x16x128 .f32 := Host.absf main_arg6
  let main_cst_6 : FVec F S_ .f32 := constant S_ .f32 0x7F800000#32
  let main_v20 : FVec F S3x16x128 .f32 := broadcastInDim S3x16x128 ![] bcast_S_S3x16x128 main_cst_6
  let main_v21 : IVec S3x16x128 1 := cmpf .olt main_v19 main_v20
  let main_c_7 : IVec S_ 1 := constantI S_ 1 1#1
  let main_v22 : IVec S_ 1 := (fun x v => Host.reduce IntOp.andi x v reducesTo_S3x16x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S2x600000 32) (main_arg2 : FVec F S600000x16 .f32) (main_arg3 : IVec S100000 32) (main_arg4 : FVec F S3x128x128 .f32) (main_arg5 : FVec F S3x128 .f32) (main_arg6 : FVec F S3x16x128 .f32) (main_arg7 : FVec F S3x128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x16 .f32 := Host.absf main_arg2
  let main_cst_0 : FVec F S_ .f32 := constant S_ .f32 0x7F800000#32
  let main_v5 : FVec F S600000x16 .f32 := broadcastInDim S600000x16 ![] bcast_S_S600000x16 main_cst_0
  let main_v6 : IVec S600000x16 1 := cmpf .olt main_v4 main_v5
  let main_c_1 : IVec S_ 1 := constantI S_ 1 1#1
  let main_v7 : IVec S_ 1 := (fun x v => Host.reduce IntOp.andi x v reducesTo_S600000x16_S_d0_1 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_v13 main_v16
-- ==== Kernel.lean ====
abbrev S100000x128 : Shape := ⟨2, ![100000, 128]⟩
abbrev S2x600000 : Shape := ⟨2, ![2, 600000]⟩
abbrev S600000x16 : Shape := ⟨2, ![600000, 16]⟩
abbrev S100000 : Shape := ⟨1, ![100000]⟩
abbrev S3x128x128 : Shape := ⟨3, ![3, 128, 128]⟩
abbrev S3x128 : Shape := ⟨2, ![3, 128]⟩
abbrev S3x16x128 : Shape := ⟨3, ![3, 16, 128]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S100000x1 : Shape := ⟨2, ![100000, 1]⟩
abbrev S600000x128 : Shape := ⟨2, ![600000, 128]⟩
abbrev S1x16x128 : Shape := ⟨3, ![1, 16, 128]⟩
abbrev S16x128 : Shape := ⟨2, ![16, 128]⟩
abbrev S1x128 : Shape := ⟨2, ![1, 128]⟩
abbrev S6000x128 : Shape := ⟨2, ![6000, 128]⟩
abbrev S6000x16 : Shape := ⟨2, ![6000, 16]⟩
abbrev S1x128x128 : Shape := ⟨3, ![1, 128, 128]⟩
abbrev S5000x128 : Shape := ⟨2, ![5000, 128]⟩
abbrev S64 : Shape := ⟨1, ![64]⟩
abbrev S64x128 : Shape := ⟨2, ![64, 128]⟩
abbrev S64x1 : Shape := ⟨2, ![64, 1]⟩

abbrev nBuf : Space → Nat
  | .hbm => 123
  | .vmem => 48
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x16, .f32⟩
  | .hbm, ⟨3, _⟩ => ⟨S100000, .i32⟩
  | .hbm, ⟨4, _⟩ => ⟨S3x128x128, .f32⟩
  | .hbm, ⟨5, _⟩ => ⟨S3x128, .f32⟩
  | .hbm, ⟨6, _⟩ => ⟨S3x16x128, .f32⟩
  | .hbm, ⟨7, _⟩ => ⟨S3x128, .f32⟩
  | .hbm, ⟨8, _⟩ => ⟨S128x128, .f32⟩
  | .hbm, ⟨9, _⟩ => ⟨S128, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .f32⟩
  | .hbm, ⟨15, _⟩ => ⟨S600000, .f32⟩
  | .hbm, ⟨16, _⟩ => ⟨S_, .f32⟩
  | .hbm, ⟨17, _⟩ => ⟨S100000, .f32⟩
  | .hbm, ⟨18, _⟩ => ⟨S600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S1x16x128, .f32⟩
  | .hbm, ⟨37, _⟩ => ⟨S16x128, .f32⟩
  | .hbm, ⟨38, _⟩ => ⟨S1x128, .f32⟩
  | .hbm, ⟨39, _⟩ => ⟨S128, .f32⟩
  | .hbm, ⟨40, _⟩ => ⟨S1x128, .f32⟩
  | .hbm, ⟨41, _⟩ => ⟨S600000x128, .f32⟩
  | .hbm, ⟨42, _⟩ => ⟨S_, .f32⟩
  | .hbm, ⟨43, _⟩ => ⟨S100000x128, .f32⟩
  | .hbm, ⟨44, _⟩ => ⟨S600000x1, .i32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128x128, .f32⟩
  | .hbm, ⟨49, _⟩ => ⟨S128x128, .f32⟩
  | .hbm, ⟨50, _⟩ => ⟨S1x128, .f32⟩
  | .hbm, ⟨51, _⟩ => ⟨S128, .f32⟩
  | .hbm, ⟨52, _⟩ => ⟨S1x128, .f32⟩
  | .hbm, ⟨53, _⟩ => ⟨S100000x128, .f32⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S600000x128, .f32⟩
  | .hbm, ⟨63, _⟩ => ⟨S1x16x128, .f32⟩
  | .hbm, ⟨64, _⟩ => ⟨S16x128, .f32⟩
  | .hbm, ⟨65, _⟩ => ⟨S1x128, .f32⟩
  | .hbm, ⟨66, _⟩ => ⟨S128, .f32⟩
  | .hbm, ⟨67, _⟩ => ⟨S1x128, .f32⟩
  | .hbm, ⟨68, _⟩ => ⟨S600000x128, .f32⟩
  | .hbm, ⟨69, _⟩ => ⟨S_, .f32⟩
  | .hbm, ⟨70, _⟩ => ⟨S100000x128, .f32⟩
  | .hbm, ⟨71, _⟩ => ⟨S600000x1, .i32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S1x128x128, .f32⟩
  | .hbm, ⟨76, _⟩ => ⟨S128x128, .f32⟩
  | .hbm, ⟨77, _⟩ => ⟨S1x128, .f32⟩
  | .hbm, ⟨78, _⟩ => ⟨S128, .f32⟩
  | .hbm, ⟨79, _⟩ => ⟨S1x128, .f32⟩
  | .hbm, ⟨80, _⟩ => ⟨S100000x128, .f32⟩
  | .hbm, ⟨81, _⟩ => ⟨S_, .i32⟩
  | .hbm, ⟨82, _⟩ => ⟨S600000, .i32⟩
  | .hbm, ⟨83, _⟩ => ⟨S600000, .i1⟩
  | .hbm, ⟨84, _⟩ => ⟨S_, .i32⟩
  | .hbm, ⟨85, _⟩ => ⟨S600000, .i32⟩
  | .hbm, ⟨86, _⟩ => ⟨S600000, .i32⟩
  | .hbm, ⟨87, _⟩ => ⟨S600000, .i32⟩
  | .hbm, ⟨88, _⟩ => ⟨S600000x1, .i32⟩
  | .hbm, ⟨89, _⟩ => ⟨S600000x128, .f32⟩
  | .hbm, ⟨90, _⟩ => ⟨S1x16x128, .f32⟩
  | .hbm, ⟨91, _⟩ => ⟨S16x128, .f32⟩
  | .hbm, ⟨92, _⟩ => ⟨S1x128, .f32⟩
  | .hbm, ⟨93, _⟩ => ⟨S128, .f32⟩
  | .hbm, ⟨94, _⟩ => ⟨S1x128, .f32⟩
  | .hbm, ⟨95, _⟩ => ⟨S600000x128, .f32⟩
  | .hbm, ⟨96, _⟩ => ⟨S_, .f32⟩
  | .hbm, ⟨97, _⟩ => ⟨S100000x128, .f32⟩
  | .hbm, ⟨98, _⟩ => ⟨S600000x1, .i32⟩
  | .hbm, ⟨99, _⟩ => ⟨S100000x128, .f32⟩
  | .hbm, ⟨100, _⟩ => ⟨S100000x128, .f32⟩
  | .hbm, ⟨101, _⟩ => ⟨S100000x128, .f32⟩
  | .hbm, ⟨102, _⟩ => ⟨S1x128x128, .f32⟩
  | .hbm, ⟨103, _⟩ => ⟨S128x128, .f32⟩
  | .hbm, ⟨104, _⟩ => ⟨S1x128, .f32⟩
  | .hbm, ⟨105, _⟩ => ⟨S128, .f32⟩
  | .hbm, ⟨106, _⟩ => ⟨S1x128, .f32⟩
  | .hbm, ⟨107, _⟩ => ⟨S100000x128, .f32⟩
  | .hbm, ⟨108, _⟩ => ⟨S1x128, .f32⟩
  | .hbm, ⟨109, _⟩ => ⟨S100000x128, .f32⟩
  | .hbm, ⟨110, _⟩ => ⟨S_, .f32⟩
  | .hbm, ⟨111, _⟩ => ⟨S100000, .f32⟩
  | .hbm, ⟨112, _⟩ => ⟨S_, .f32⟩
  | .hbm, ⟨113, _⟩ => ⟨S64, .f32⟩
  | .hbm, ⟨114, _⟩ => ⟨S100000x1, .i32⟩
  | .hbm, ⟨115, _⟩ => ⟨S64, .f32⟩
  | .hbm, ⟨116, _⟩ => ⟨S_, .f32⟩
  | .hbm, ⟨117, _⟩ => ⟨S64x128, .f32⟩
  | .hbm, ⟨118, _⟩ => ⟨S100000x1, .i32⟩
  | .hbm, ⟨119, _⟩ => ⟨S64x128, .f32⟩
  | .hbm, ⟨120, _⟩ => ⟨S64x1, .f32⟩
  | .hbm, ⟨121, _⟩ => ⟨S64x128, .f32⟩
  | .hbm, ⟨122, _⟩ => ⟨S64x128, .f32⟩
  | .local _ .vmem, ⟨0, _⟩ => ⟨S6000x128, .f32⟩
  | .local _ .vmem, ⟨1, _⟩ => ⟨S6000x128, .f32⟩
  | .local _ .vmem, ⟨2, _⟩ => ⟨S6000x16, .f32⟩
  | .local _ .vmem, ⟨3, _⟩ => ⟨S6000x16, .f32⟩
  | .local _ .vmem, ⟨4, _⟩ => ⟨S16x128, .f32⟩
  | .local _ .vmem, ⟨5, _⟩ => ⟨S1x128, .f32⟩
  | .local _ .vmem, ⟨6, _⟩ => ⟨S6000x128, .f32⟩
  | .local _ .vmem, ⟨7, _⟩ => ⟨S6000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S6000x128, .f32⟩
  | .local _ .vmem, ⟨15, _⟩ => ⟨S6000x128, .f32⟩
  | .local _ .vmem, ⟨16, _⟩ => ⟨S6000x16, .f32⟩
  | .local _ .vmem, ⟨17, _⟩ => ⟨S6000x16, .f32⟩
  | .local _ .vmem, ⟨18, _⟩ => ⟨S16x128, .f32⟩
  | .local _ .vmem, ⟨19, _⟩ => ⟨S1x128, .f32⟩
  | .local _ .vmem, ⟨20, _⟩ => ⟨S6000x128, .f32⟩
  | .local _ .vmem, ⟨21, _⟩ => ⟨S6000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S6000x128, .f32⟩
  | .local _ .vmem, ⟨29, _⟩ => ⟨S6000x128, .f32⟩
  | .local _ .vmem, ⟨30, _⟩ => ⟨S6000x16, .f32⟩
  | .local _ .vmem, ⟨31, _⟩ => ⟨S6000x16, .f32⟩
  | .local _ .vmem, ⟨32, _⟩ => ⟨S16x128, .f32⟩
  | .local _ .vmem, ⟨33, _⟩ => ⟨S1x128, .f32⟩
  | .local _ .vmem, ⟨34, _⟩ => ⟨S6000x128, .f32⟩
  | .local _ .vmem, ⟨35, _⟩ => ⟨S6000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_5 : Ref sig .tc := ⟨.hbm, 54, rfl⟩
abbrev main_v37 : Ref sig .tc := ⟨.hbm, 55, rfl⟩
abbrev main_v38 : Ref sig .tc := ⟨.hbm, 56, rfl⟩
abbrev main_c_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_8 : Ref sig .tc := ⟨.hbm, 81, rfl⟩
abbrev main_v61 : Ref sig .tc := ⟨.hbm, 82, rfl⟩
abbrev main_v62 : Ref sig .tc := ⟨.hbm, 83, rfl⟩
abbrev main_c_9 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_10 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_11 : Ref sig .tc := ⟨.hbm, 110, rfl⟩
abbrev main_v87 : Ref sig .tc := ⟨.hbm, 111, rfl⟩
abbrev main_cst_12 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_13 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S6000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6000x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S16x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S6000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  slices_S3x16x128_S1x16x128_0_0_0 : S3x16x128.Slices ![0, 0, 0] S1x16x128
  shapeCasts_S1x16x128_S16x128 : S1x16x128.ShapeCasts S16x128
  slices_S3x128_S1x128_0_0 : S3x128.Slices ![0, 0] S1x128
  shapeCasts_S1x128_S128 : S1x128.ShapeCasts S128
  shapeCasts_S128_S1x128 : S128.ShapeCasts S1x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  inb_S6000x16_S6000x16_0_0 : ∀ a, (![0, 0] : Fin 2 → Nat) a + S6000x16.size a ≤ S6000x16.size a
  h_S6000x16 : 0 < S6000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  slices_S3x16x128_S1x16x128_1_0_0 : S3x16x128.Slices ![1, 0, 0] S1x16x128
  slices_S3x128_S1x128_1_0 : S3x128.Slices ![1, 0] S1x128
  slices_S3x128x128_S1x128x128_1_0_0 : S3x128x128.Slices ![1, 0, 0] S1x128x128
  slices_S3x16x128_S1x16x128_2_0_0 : S3x16x128.Slices ![2, 0, 0] S1x16x128
  slices_S3x128_S1x128_2_0 : S3x128.Slices ![2, 0] S1x128
  slices_S3x128x128_S1x128x128_2_0_0 : S3x128x128.Slices ![2, 0, 0] S1x128x128
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  dot_S6000x16_S16x128_S6000x128_1_0_0_1_n_n_wf : DotDims.WF S6000x16 S16x128 S6000x128 [1] [0] [0] [1] [] []
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .f32 = 32 ∨ (Rect.block (s := S600000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x16.size a ≤ S600000x16.size a
  hwx0_1 : ∀ i : grid0.Coords, EltTy.bits .f32 = 32 ∨ (Rect.block (s := S600000x16) S6000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6000x128.size a ≤ S600000x128.size a
  hwx0_4 : ∀ i : grid0.Coords, EltTy.bits .f32 = 32 ∨ (Rect.block (s := S600000x128) S6000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x128.size a ≤ S600000x128.size a
  hwx2_0 : ∀ i : grid2.Coords, EltTy.bits .f32 = 32 ∨ (Rect.block (s := S600000x128) S6000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x16.size a ≤ S600000x16.size a
  hwx2_1 : ∀ i : grid2.Coords, EltTy.bits .f32 = 32 ∨ (Rect.block (s := S600000x16) S6000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x128.size a ≤ S16x128.size a
  hwx2_2 : ∀ i : grid2.Coords, EltTy.bits .f32 = 32 ∨ (Rect.block (s := S16x128) S16x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S6000x128.size a ≤ S600000x128.size a
  hwx2_4 : ∀ i : grid2.Coords, EltTy.bits .f32 = 32 ∨ (Rect.block (s := S600000x128) S6000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x128.size a ≤ S600000x128.size a
  hwx4_0 : ∀ i : grid4.Coords, EltTy.bits .f32 = 32 ∨ (Rect.block (s := S600000x128) S6000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6000x16.size a ≤ S600000x16.size a
  hwx4_1 : ∀ i : grid4.Coords, EltTy.bits .f32 = 32 ∨ (Rect.block (s := S600000x16) S6000x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x128.size a ≤ S16x128.size a
  hwx4_2 : ∀ i : grid4.Coords, EltTy.bits .f32 = 32 ∨ (Rect.block (s := S16x128) S16x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S6000x128.size a ≤ S600000x128.size a
  hwx4_4 : ∀ i : grid4.Coords, EltTy.bits .f32 = 32 ∨ (Rect.block (s := S600000x128) S6000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S100000x128.size a
  hwx6_3 : ∀ i : grid6.Coords, EltTy.bits .f32 = 32 ∨ (Rect.block (s := S100000x128) S5000x128.size (cc6_transform_3 i) (hinb6_3 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S6000x16_S16x128_S6000x128_1_0_0_1_n_n : DotDims S6000x16 S16x128 S6000x128 where
  lhsContracting := [1]
  rhsContracting := [0]
  lhsNonContracting := [0]
  rhsNonContracting := [1]
  lhsBatch := []
  rhsBatch := []
  wf := dot_S6000x16_S16x128_S6000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf

abbrev win0_0 : Pipeline.Window sig grid0 :=
  Pipeline.Window.ofSpec (Memref.whole main_v19) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S6000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v43) S6000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S6000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S16x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S6000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v54) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v67) S6000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S6000x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v69) S16x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v73) S6000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v78) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v83) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v84) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v84) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v85) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v86) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000x16 : Shape := ⟨2, ![600000, 16]⟩
abbrev S100000 : Shape := ⟨1, ![100000]⟩
abbrev S3x128x128 : Shape := ⟨3, ![3, 128, 128]⟩
abbrev S3x128 : Shape := ⟨2, ![3, 128]⟩
abbrev S3x16x128 : Shape := ⟨3, ![3, 16, 128]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S100000x1 : Shape := ⟨2, ![100000, 1]⟩
abbrev S600000x128 : Shape := ⟨2, ![600000, 128]⟩
abbrev S1x16x128 : Shape := ⟨3, ![1, 16, 128]⟩
abbrev S16x128 : Shape := ⟨2, ![16, 128]⟩
abbrev S1x128 : Shape := ⟨2, ![1, 128]⟩
abbrev S1x128x128 : Shape := ⟨3, ![1, 128, 128]⟩
abbrev S64 : Shape := ⟨1, ![64]⟩
abbrev S64x128 : Shape := ⟨2, ![64, 128]⟩
abbrev S64x1 : Shape := ⟨2, ![64, 1]⟩

abbrev nBuf : Space → Nat
  | .hbm => 146
  | .vmem => 0
  | .smem => 0
  | _ => 0

abbrev hbmTy0_0 (i : Nat) : BufTy := match i % 128 with
  | 0 => ⟨S100000x128, .f32⟩
  | 1 => ⟨S2x600000, .i32⟩
  | 2 => ⟨S600000x16, .f32⟩
  | 3 => ⟨S100000, .i32⟩
  | 4 => ⟨S3x128x128, .f32⟩
  | 5 => ⟨S3x128, .f32⟩
  | 6 => ⟨S3x16x128, .f32⟩
  | 7 => ⟨S3x128, .f32⟩
  | 8 => ⟨S128x128, .f32⟩
  | 9 => ⟨S128, .f32⟩
  | 10 => ⟨S1x600000, .i32⟩
  | 11 => ⟨S600000, .i32⟩
  | 12 => ⟨S1x600000, .i32⟩
  | 13 => ⟨S600000, .i32⟩
  | 14 => ⟨S_, .f32⟩
  | 15 => ⟨S600000, .f32⟩
  | 16 => ⟨S_, .f32⟩
  | 17 => ⟨S100000, .f32⟩
  | 18 => ⟨S600000x1, .i32⟩
  | 19 => ⟨S100000, .f32⟩
  | 20 => ⟨S_, .f32⟩
  | 21 => ⟨S100000, .f32⟩
  | 22 => ⟨S100000, .f32⟩
  | 23 => ⟨S100000x1, .f32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000x128, .f32⟩
  | 33 => ⟨S1x16x128, .f32⟩
  | 34 => ⟨S16x128, .f32⟩
  | 35 => ⟨S600000x128, .f32⟩
  | 36 => ⟨S1x128, .f32⟩
  | 37 => ⟨S128, .f32⟩
  | 38 => ⟨S1x128, .f32⟩
  | 39 => ⟨S600000x128, .f32⟩
  | 40 => ⟨S600000x128, .f32⟩
  | 41 => ⟨S600000x128, .f32⟩
  | 42 => ⟨S_, .f32⟩
  | 43 => ⟨S100000x128, .f32⟩
  | 44 => ⟨S600000x1, .i32⟩
  | 45 => ⟨S100000x128, .f32⟩
  | 46 => ⟨S100000x128, .f32⟩
  | 47 => ⟨S100000x128, .f32⟩
  | 48 => ⟨S1x128x128, .f32⟩
  | 49 => ⟨S128x128, .f32⟩
  | 50 => ⟨S100000x128, .f32⟩
  | 51 => ⟨S1x128, .f32⟩
  | 52 => ⟨S128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S_, .i32⟩
  | 60 => ⟨S600000, .i32⟩
  | 61 => ⟨S600000, .i1⟩
  | 62 => ⟨S_, .i32⟩
  | 63 => ⟨S600000, .i32⟩
  | 64 => ⟨S600000, .i32⟩
  | 65 => ⟨S600000, .i32⟩
  | 66 => ⟨S600000x1, .i32⟩
  | 67 => ⟨S600000x128, .f32⟩
  | 68 => ⟨S1x16x128, .f32⟩
  | 69 => ⟨S16x128, .f32⟩
  | 70 => ⟨S600000x128, .f32⟩
  | 71 => ⟨S1x128, .f32⟩
  | 72 => ⟨S128, .f32⟩
  | 73 => ⟨S1x128, .f32⟩
  | 74 => ⟨S600000x128, .f32⟩
  | 75 => ⟨S600000x128, .f32⟩
  | 76 => ⟨S600000x128, .f32⟩
  | 77 => ⟨S_, .f32⟩
  | 78 => ⟨S100000x128, .f32⟩
  | 79 => ⟨S600000x1, .i32⟩
  | 80 => ⟨S100000x128, .f32⟩
  | 81 => ⟨S100000x128, .f32⟩
  | 82 => ⟨S100000x128, .f32⟩
  | 83 => ⟨S1x128x128, .f32⟩
  | 84 => ⟨S128x128, .f32⟩
  | 85 => ⟨S100000x128, .f32⟩
  | 86 => ⟨S1x128, .f32⟩
  | 87 => ⟨S128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000x128, .f32⟩
  | 103 => ⟨S1x16x128, .f32⟩
  | 104 => ⟨S16x128, .f32⟩
  | 105 => ⟨S600000x128, .f32⟩
  | 106 => ⟨S1x128, .f32⟩
  | 107 => ⟨S128, .f32⟩
  | 108 => ⟨S1x128, .f32⟩
  | 109 => ⟨S600000x128, .f32⟩
  | 110 => ⟨S600000x128, .f32⟩
  | 111 => ⟨S600000x128, .f32⟩
  | 112 => ⟨S_, .f32⟩
  | 113 => ⟨S100000x128, .f32⟩
  | 114 => ⟨S600000x1, .i32⟩
  | 115 => ⟨S100000x128, .f32⟩
  | 116 => ⟨S100000x128, .f32⟩
  | 117 => ⟨S100000x128, .f32⟩
  | 118 => ⟨S1x128x128, .f32⟩
  | 119 => ⟨S128x128, .f32⟩
  | 120 => ⟨S100000x128, .f32⟩
  | 121 => ⟨S1x128, .f32⟩
  | 122 => ⟨S128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S_, .f32⟩
  | 6 => ⟨S100000, .f32⟩
  | 7 => ⟨S_, .f32⟩
  | 8 => ⟨S64, .f32⟩
  | 9 => ⟨S100000x1, .i32⟩
  | 10 => ⟨S64, .f32⟩
  | 11 => ⟨S_, .f32⟩
  | 12 => ⟨S64x128, .f32⟩
  | 13 => ⟨S100000x1, .i32⟩
  | 14 => ⟨S64x128, .f32⟩
  | 15 => ⟨S64x1, .f32⟩
  | 16 => ⟨S64x128, .f32⟩
  | 17 => ⟨S64x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_cst : Ref sig .tc := ⟨.hbm, 56, rfl⟩
abbrev main_call0_v0 : Ref sig .tc := ⟨.hbm, 57, rfl⟩
abbrev main_v40 : Ref sig .tc := ⟨.hbm, 58, rfl⟩
abbrev main_c_4 : Ref sig .tc := ⟨.hbm, 59, rfl⟩
abbrev main_v41 : Ref sig .tc := ⟨.hbm, 60, rfl⟩
abbrev main_v42 : Ref sig .tc := ⟨.hbm, 61, rfl⟩
abbrev main_c_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_6 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_call1_cst : Ref sig .tc := ⟨.hbm, 91, rfl⟩
abbrev main_call1_v0 : Ref sig .tc := ⟨.hbm, 92, rfl⟩
abbrev main_v70 : Ref sig .tc := ⟨.hbm, 93, rfl⟩
abbrev main_c_7 : Ref sig .tc := ⟨.hbm, 94, rfl⟩
abbrev main_v71 : Ref sig .tc := ⟨.hbm, 95, rfl⟩
abbrev main_v72 : Ref sig .tc := ⟨.hbm, 96, rfl⟩
abbrev main_c_8 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_9 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_call2_cst : Ref sig .tc := ⟨.hbm, 126, rfl⟩
abbrev main_call2_v0 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_10 : Ref sig .tc := ⟨.hbm, 133, rfl⟩
abbrev main_v105 : Ref sig .tc := ⟨.hbm, 134, rfl⟩
abbrev main_cst_11 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_12 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  slices_S3x16x128_S1x16x128_0_0_0 : S3x16x128.Slices ![0, 0, 0] S1x16x128
  shapeCasts_S1x16x128_S16x128 : S1x16x128.ShapeCasts S16x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  bcast_S1x128_S100000x128_0_1 : S1x128.BroadcastsInDim S100000x128 (![0, 1] : Fin 2 → Fin S100000x128.rank)
  slices_S3x16x128_S1x16x128_1_0_0 : S3x16x128.Slices ![1, 0, 0] S1x16x128
  slices_S3x128_S1x128_1_0 : S3x128.Slices ![1, 0] S1x128
  slices_S3x128x128_S1x128x128_1_0_0 : S3x128x128.Slices ![1, 0, 0] S1x128x128
  slices_S3x16x128_S1x16x128_2_0_0 : S3x16x128.Slices ![2, 0, 0] S1x16x128
  slices_S3x128_S1x128_2_0 : S3x128.Slices ![2, 0] S1x128
  slices_S3x128x128_S1x128x128_2_0_0 : S3x128x128.Slices ![2, 0, 0] S1x128x128
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  dot_S600000x16_S16x128_S600000x128_1_0_0_1_n_n_wf : DotDims.WF S600000x16 S16x128 S600000x128 [1] [0] [0] [1] [] []
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x16_S16x128_S600000x128_1_0_0_1_n_n : DotDims S600000x16 S16x128 S600000x128 where
  lhsContracting := [1]
  rhsContracting := [0]
  lhsNonContracting := [0]
  rhsNonContracting := [1]
  lhsBatch := []
  rhsBatch := []
  wf := dot_S600000x16_S16x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf

class Facts : Prop extends Facts₀ where

variable [Facts]
-- ==== Proof.KRun.lean ====
/-
  The kernel program's run with its two results named.

  Every weakly fair execution of the program terminates without a fault; at the end each of the two result arrays
  holds what the fold of the program's segments leaves there (the contents after the last stretch of host
  operations), and the ten argument arrays hold what they held at the launch.
-/
import proofs.«145857_j7275674599908_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the final contents of the segments' fold, the arguments as launched. -/
theorem run_results : θ_run defs (onTc (τ := τ) (main (F := F))) ⟨m, fun _ => 0, ρ⟩ (fun r => ∀ c : Dev nD,
      r.2.mem ((c.tc : Thread nD τ).loc main_v86) = W15 m ρ c (Proc.devRef .tc main_v86)
      ∧ r.2.mem ((c.tc : Thread nD τ).loc main_v96) = W15 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v86 (by decide)),
       h c _ (mem_uc main_v96 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c)⟩)

end Cert.KernelIdeal.KRun

end
-- ==== Proof.LibDenseSpec.lean ====
/-
  The three dense stages of the two-layer graph convolution network, as whole-array functions on extended reals.

  A node-feature matrix `A` of `R` rows is mapped row by row, so a stage's entry at row `r` depends on row `r`
  of its input only:
    * `linear X W`            — the product `X · W`;
    * `reluLinear A b W`      — `relu (A + b) · W`, the bias `b` added to every row;
    * `reluLinearLogistic A b W β` — `σ (relu (A + b) · W + β)`, with `σ t = 1 / (1 + e⁻ᵗ)`.
  The zero of the rectifier is kept as the all-zero 32-bit word read at the ideal values: the same word stands on both
  sides of every equation below and is never evaluated.
-/
import Idealize.ShloMosaic.PureOps.Ideal
import Idealize.ShloMosaic.Lib.ValueIdx

noncomputable section

namespace Cert.Gcn

open Idealize.ShloMosaic Idealize.ShloMosaic.ValueIdx

variable {R K N : ℕ}

/-- The matrix product: entry `(r, c)` is the sum over `k` of `X[r,k] * W[k,c]`. -/
def linear (X : FVec Ideal ⟨2, ![R, K]⟩ .f32) (W : FVec Ideal ⟨2, ![K, N]⟩ .f32) : FVec Ideal ⟨2, ![R, N]⟩ .f32 :=
  fun i => ∑ k : Fin K, X (ix2 (i 0) k) * W (ix2 k (i 1))

/-- A row bias added and the rectifier applied, entry by entry. -/
def biasRelu (A : FVec Ideal ⟨2, ![R, K]⟩ .f32) (b : FVec Ideal ⟨1, ![K]⟩ .f32) : FVec Ideal ⟨2, ![R, K]⟩ .f32 :=
  fun i => max (A i + b (ix1 (i 1))) (Ideal.ofBits .f32 0x00000000#32)

/-- `relu (A + b) · W`. -/
def reluLinear (A : FVec Ideal ⟨2, ![R, K]⟩ .f32) (b : FVec Ideal ⟨1, ![K]⟩ .f32) (W : FVec Ideal ⟨2, ![K, N]⟩ .f32) :
    FVec Ideal ⟨2, ![R, N]⟩ .f32 :=
  linear (biasRelu A b) W

/-- `σ (relu (A + b) · W + β)` for a one-column `W` and a one-entry `β`. -/
def reluLinearLogistic (A : FVec Ideal ⟨2, ![R, K]⟩ .f32) (b : FVec Ideal ⟨1, ![K]⟩ .f32) (W : FVec Ideal ⟨2, ![K, 1]⟩ .f32)
    (β : FVec Ideal ⟨1, ![1]⟩ .f32) : FVec Ideal ⟨2, ![R, 1]⟩ .f32 :=
  fun i => Ideal.logistic (reluLinear A b W i + β (ix1 (0 : Fin 1)))

theorem linear_ix2 (X : FVec Ideal ⟨2, ![R, K]⟩ .f32) (W : FVec Ideal ⟨2, ![K, N]⟩ .f32) (r : Fin R) (c : Fin N) :
    linear X W (ix2 r c) = ∑ k : Fin K, X (ix2 r k) * W (ix2 k c) := rfl

theorem biasRelu_ix2 (A : FVec Ideal ⟨2, ![R, K]⟩ .f32) (b : FVec Ideal ⟨1, ![K]⟩ .f32) (r : Fin R) (k : Fin K) :
    biasRelu A b (ix2 r k) = max (A (ix2 r k) + b (ix1 k)) (Ideal.ofBits .f32 0x00000000#32) := rfl

/-- Two inputs that agree on row `r` give the same product row. -/
theorem linear_congr_row (X X' : FVec Ideal ⟨2, ![R, K]⟩ .f32) (W : FVec Ideal ⟨2, ![K, N]⟩ .f32) (r : Fin R) (c : Fin N)
    (h : ∀ k : Fin K, X (ix2 r k) = X' (ix2 r k)) : linear X W (ix2 r c) = linear X' W (ix2 r c) := by
  rw [linear_ix2, linear_ix2]
  exact Finset.sum_congr rfl fun k _ => by rw [h k]

end Cert.Gcn

end
-- ==== Proof.LibBiasRow.lean ====
/-
  A bias row added to every row of a matrix inside a kernel, read at an entry, at the ideal values.

  The bias arrives as a one-row matrix `[1, K]`. The kernel re-casts both operands to their own shapes (the identity),
  broadcasts the row down the `R` rows, adds, and — for a layer with a rectifier — takes the maximum with a splat zero.
  At entry `(p, k)` that is `A[p,k] + b[0,k]`, respectively `max (A[p,k] + b[0,k]) 0`, the `0` being the all-zero word, which
  is never evaluated. `rowOf` reads the one-row matrix as the vector of its row, so that the result is `biasRelu A (rowOf b)`
  (or `addBias A (rowOf b)`) in the vocabulary of the dense stages; the row of a vector re-cast to one row is the vector.
-/
import proofs.«145857_j7275674599908_1_alg».proof.Proof.LibDenseSpec
import Idealize.ShloMosaic.Lib.Pipeline.Value
import Idealize.ShloMosaic.Lib.ValueIdx
import Idealize.ShloMosaic.Lib.ValueLayout

noncomputable section

namespace Cert.Gcn

open Idealize.ShloMosaic Idealize.ShloMosaic.ValueIdx

variable {R K : ℕ}

/-- A row bias added, entry by entry (a layer without a rectifier). -/
def addBias (A : FVec Ideal ⟨2, ![R, K]⟩ .f32) (b : FVec Ideal ⟨1, ![K]⟩ .f32) : FVec Ideal ⟨2, ![R, K]⟩ .f32 :=
  fun i => A i + b (ix1 (i 1))

theorem addBias_ix2 (A : FVec Ideal ⟨2, ![R, K]⟩ .f32) (b : FVec Ideal ⟨1, ![K]⟩ .f32) (r : Fin R) (k : Fin K) :
    addBias A b (ix2 r k) = A (ix2 r k) + b (ix1 k) := rfl

/-- The row of a one-row matrix, as a vector. -/
def rowOf {α : Type} (b : (⟨2, ![1, K]⟩ : Shape).Idx → α) : (⟨1, ![K]⟩ : Shape).Idx → α := fun j => b (ix2 (0 : Fin 1) (j 0))

theorem rowOf_ix1 {α : Type} (b : (⟨2, ![1, K]⟩ : Shape).Idx → α) (k : Fin K) : rowOf b (ix1 k) = b (ix2 (0 : Fin 1) k) := rfl

/-- The row of a vector re-cast to a one-row matrix is the vector. -/
theorem rowOf_shapeCast {α : Type} (b : (⟨1, ![K]⟩ : Shape).Idx → α) (h : (⟨1, ![K]⟩ : Shape).ShapeCasts ⟨2, ![1, K]⟩) :
    rowOf (shapeCast ⟨2, ![1, K]⟩ b h) = b := by
  funext j
  obtain ⟨k, rfl⟩ : ∃ k : Fin K, j = ix1 k := ⟨j 0, eq_ix1 j⟩
  rw [rowOf_ix1, shapeCast_a_1a_apply]

/-- A kernel's `relu (A + b)` with the bias as a one-row block, at entry `(p, k)`. -/
theorem biasRelu_rowBlock (x0 : FVec Ideal ⟨2, ![R, K]⟩ .f32) (x1 : FVec Ideal ⟨2, ![1, K]⟩ .f32)
    (h1 : (⟨2, ![R, K]⟩ : Shape).ShapeCasts ⟨2, ![R, K]⟩) (h2 : (⟨2, ![1, K]⟩ : Shape).ShapeCasts ⟨2, ![1, K]⟩)
    (h3 : (⟨2, ![1, K]⟩ : Shape).Broadcasts ⟨2, ![R, K]⟩) (p : Fin R) (k : Fin K) :
    maximumf (addf (shapeCast ⟨2, ![R, K]⟩ x0 h1) (broadcastTo ⟨2, ![R, K]⟩ (shapeCast ⟨2, ![1, K]⟩ x1 h2) h3))
        (broadcast ⟨2, ![R, K]⟩ (Scalar.ofBits (F := Ideal) .f32 0x00000000#32)) (ix2 p k)
      = biasRelu x0 (rowOf x1) (ix2 p k) := by
  rw [biasRelu_ix2, rowOf_ix1, maximumf_apply, addf_apply, broadcast_apply, shapeCast_self, shapeCast_self, broadcastTo_1b_ab_apply]
  rfl

/-- A kernel's `A + b` with the bias as a one-row block, at entry `(p, k)`. -/
theorem addBias_rowBlock (x0 : FVec Ideal ⟨2, ![R, K]⟩ .f32) (x1 : FVec Ideal ⟨2, ![1, K]⟩ .f32)
    (h1 : (⟨2, ![R, K]⟩ : Shape).ShapeCasts ⟨2, ![R, K]⟩) (h2 : (⟨2, ![1, K]⟩ : Shape).ShapeCasts ⟨2, ![1, K]⟩)
    (h3 : (⟨2, ![1, K]⟩ : Shape).Broadcasts ⟨2, ![R, K]⟩) (p : Fin R) (k : Fin K) :
    addf (shapeCast ⟨2, ![R, K]⟩ x0 h1) (broadcastTo ⟨2, ![R, K]⟩ (shapeCast ⟨2, ![1, K]⟩ x1 h2) h3) (ix2 p k)
      = addBias x0 (rowOf x1) (ix2 p k) := by
  rw [addBias_ix2, rowOf_ix1, addf_apply, shapeCast_self, shapeCast_self, broadcastTo_1b_ab_apply]

end Cert.Gcn

end
-- ==== Proof.GnnSpec.lean ====
/-
  The dense stages of a message-passing layer with edge features, as whole-array functions on extended reals.

  For node features of H columns and edge features of D columns:
    * `edgeCombine xg ea We be` — the message of each edge: the gathered source row plus the edge's features through a
      linear map, `(xg[e,h] + Σ_k ea[e,k] * We[k,h]) + be[h]`;
    * `nodeUpdate A W b` — `max (Σ_k A[n,k] * W[k,h] + b[h]) 0`;
    * `outProj X W b` — `Σ_k X[n,k] * W[k,h] + b[h]`.
  Addition of extended reals is associative and commutative, so `(x + l) + b = x + (l + b)` holds with no finiteness
  hypothesis; that is the only law relating the two groupings of the message.
-/
import proofs.«145857_j7275674599908_1_alg».proof.Proof.LibDenseSpec
import proofs.«145857_j7275674599908_1_alg».proof.Proof.LibBiasRow

noncomputable section

namespace Cert.EdgeGnn

open Idealize.ShloMosaic Idealize.ShloMosaic.ValueIdx Cert.Gcn

variable {E D H R K N : ℕ}

/-- The message of every edge: gathered source row, plus the edge features through a linear map, plus a bias row. -/
def edgeCombine (xg : FVec Ideal ⟨2, ![E, H]⟩ .f32) (ea : FVec Ideal ⟨2, ![E, D]⟩ .f32) (we : FVec Ideal ⟨2, ![D, H]⟩ .f32)
    (be : FVec Ideal ⟨1, ![H]⟩ .f32) : FVec Ideal ⟨2, ![E, H]⟩ .f32 :=
  fun i => (xg i + linear ea we i) + be (ix1 (i 1))

theorem edgeCombine_ix2 (xg : FVec Ideal ⟨2, ![E, H]⟩ .f32) (ea : FVec Ideal ⟨2, ![E, D]⟩ .f32) (we : FVec Ideal ⟨2, ![D, H]⟩ .f32)
    (be : FVec Ideal ⟨1, ![H]⟩ .f32) (e : Fin E) (h : Fin H) :
    edgeCombine xg ea we be (ix2 e h) = (xg (ix2 e h) + ∑ k : Fin D, ea (ix2 e k) * we (ix2 k h)) + be (ix1 h) := rfl

/-- The node update: a linear map, a bias row, the rectifier. -/
def nodeUpdate (a : FVec Ideal ⟨2, ![R, K]⟩ .f32) (w : FVec Ideal ⟨2, ![K, N]⟩ .f32) (b : FVec Ideal ⟨1, ![N]⟩ .f32) :
    FVec Ideal ⟨2, ![R, N]⟩ .f32 :=
  biasRelu (linear a w) b

theorem nodeUpdate_ix2 (a : FVec Ideal ⟨2, ![R, K]⟩ .f32) (w : FVec Ideal ⟨2, ![K, N]⟩ .f32) (b : FVec Ideal ⟨1, ![N]⟩ .f32)
    (r : Fin R) (n : Fin N) :
    nodeUpdate a w b (ix2 r n) = max ((∑ k : Fin K, a (ix2 r k) * w (ix2 k n)) + b (ix1 n)) (Ideal.ofBits .f32 0x00000000#32) := rfl

/-- The output projection: a linear map and a bias row. -/
def outProj (a : FVec Ideal ⟨2, ![R, K]⟩ .f32) (w : FVec Ideal ⟨2, ![K, N]⟩ .f32) (b : FVec Ideal ⟨1, ![N]⟩ .f32) :
    FVec Ideal ⟨2, ![R, N]⟩ .f32 :=
  addBias (linear a w) b

theorem outProj_ix2 (a : FVec Ideal ⟨2, ![R, K]⟩ .f32) (w : FVec Ideal ⟨2, ![K, N]⟩ .f32) (b : FVec Ideal ⟨1, ![N]⟩ .f32)
    (r : Fin R) (n : Fin N) :
    outProj a w b (ix2 r n) = (∑ k : Fin K, a (ix2 r k) * w (ix2 k n)) + b (ix1 n) := rfl

end Cert.EdgeGnn

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.KPay.lean ====
/-
  The three kernel bodies read at an entry, at the ideal values.

  Each body loads whole blocks, rounds the two matrix operands to a shorter float format (the identity on extended
  reals), multiplies them into a zero accumulator, adds a bias row broadcast down the rows, and (the node update)
  takes the maximum with zero. Read at entry (p, q) of the block: the message `(x[p,q] + Σ_k ea[p,k] * We[k,q]) + be[0,q]`,
  the node update `max (Σ_k a[p,k] * W[k,q] + b[0,q]) 0`, the projection `Σ_k a[p,k] * W[k,q] + b[0,q]`.
-/
import proofs.«145857_j7275674599908_1_alg».proof.Proof.Gen.KernelIdeal.Skeleton
import proofs.«145857_j7275674599908_1_alg».proof.Proof.GnnSpec
import proofs.«145857_j7275674599908_1_alg».proof.Proof.LibMatmulSum
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Gcn Cert.EdgeGnn Cert.GraphConv

/-! ## The two products' dimension records: which coordinate of each operand comes from where -/

theorem dotE_l0 (i : S6000x128.Idx) (q : dot_S6000x16_S16x128_S6000x128_1_0_0_1_n_n.contr.Idx) : (dot_S6000x16_S16x128_S6000x128_1_0_0_1_n_n.lhsIdx i q 0).val = (i 0).val := by
  unfold DotDims.lhsIdx
  rw [dif_neg (show ¬(0 : Fin S6000x16.rank) ∈ dot_S6000x16_S16x128_S6000x128_1_0_0_1_n_n.lhsBatch by decide), dif_pos (show (0 : Fin S6000x16.rank) ∈ dot_S6000x16_S16x128_S6000x128_1_0_0_1_n_n.lhsNonContracting by decide)]
  rfl
theorem dotE_l1 (i : S6000x128.Idx) (q : dot_S6000x16_S16x128_S6000x128_1_0_0_1_n_n.contr.Idx) : (dot_S6000x16_S16x128_S6000x128_1_0_0_1_n_n.lhsIdx i q 1).val = (q ⟨0, by decide⟩).val :=
  dot_S6000x16_S16x128_S6000x128_1_0_0_1_n_n.lhsIdx_val_of_single rfl i q
theorem dotE_r0 (i : S6000x128.Idx) (q : dot_S6000x16_S16x128_S6000x128_1_0_0_1_n_n.contr.Idx) : (dot_S6000x16_S16x128_S6000x128_1_0_0_1_n_n.rhsIdx i q 0).val = (q ⟨0, by decide⟩).val :=
  dot_S6000x16_S16x128_S6000x128_1_0_0_1_n_n.rhsIdx_val_of_single rfl i q
theorem dotE_r1 (i : S6000x128.Idx) (q : dot_S6000x16_S16x128_S6000x128_1_0_0_1_n_n.contr.Idx) : (dot_S6000x16_S16x128_S6000x128_1_0_0_1_n_n.rhsIdx i q 1).val = (i 1).val := by
  unfold DotDims.rhsIdx
  rw [dif_neg (show ¬(1 : Fin S16x128.rank) ∈ dot_S6000x16_S16x128_S6000x128_1_0_0_1_n_n.rhsBatch by decide), dif_pos (show (1 : Fin S16x128.rank) ∈ dot_S6000x16_S16x128_S6000x128_1_0_0_1_n_n.rhsNonContracting by decide)]
  rfl

theorem dotN_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dotN_l1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem dotN_r0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem dotN_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The bodies -/

/-- The edge body at entry (p, q). -/
theorem pay_edge (x0 : Vec Ideal S6000x128 .f32) (x1 : Vec Ideal S6000x16 .f32) (x2 : Vec Ideal S16x128 .f32)
    (x3 : Vec Ideal S1x128 .f32) (p : Fin 6000) (q : Fin 128) :
    k0_pay1 (F := Ideal) x0 x1 x2 x3 (ix2 p q) = edgeCombine x0 x1 x2 (rowOf x3) (ix2 p q) := by
  rw [edgeCombine_ix2, rowOf_ix1]
  unfold k0_pay1
  simp only [addf_apply, shapeCast_self, broadcastTo_1b_ab_apply]
  show x0 (ix2 p q) + FloatOps.matmul dot_S6000x16_S16x128_S6000x128_1_0_0_1_n_n none (truncf .bf16 x1 _) (truncf .bf16 x2 _)
      (constant (F := Ideal) S6000x128 .f32 0x00000000#32) (ix2 p q) + x3 (ix2 0 q) = _
  rw [matmul_zero_sum dot_S6000x16_S16x128_S6000x128_1_0_0_1_n_n none rfl rfl dotE_l0 dotE_l1 dotE_r0 dotE_r1]
  rfl

/-- The node-update body at entry (p, q). -/
theorem pay_node (x0 : Vec Ideal S5000x128 .f32) (x1 : Vec Ideal S128x128 .f32) (x2 : Vec Ideal S1x128 .f32)
    (p : Fin 5000) (q : Fin 128) :
    k1_pay1 (F := Ideal) x0 x1 x2 (ix2 p q) = nodeUpdate x0 x1 (rowOf x2) (ix2 p q) := by
  rw [nodeUpdate_ix2, rowOf_ix1]
  unfold k1_pay1
  simp only [maximumf_apply, addf_apply, broadcast_apply, shapeCast_self, broadcastTo_1b_ab_apply]
  show max (FloatOps.matmul dot_S5000x128_S128x128_S5000x128_1_0_0_1_n_n none (truncf .bf16 x0 _) (truncf .bf16 x1 _)
      (constant (F := Ideal) S5000x128 .f32 0x00000000#32) (ix2 p q) + x2 (ix2 0 q)) _ = _
  rw [matmul_zero_sum dot_S5000x128_S128x128_S5000x128_1_0_0_1_n_n none rfl rfl dotN_l0 dotN_l1 dotN_r0 dotN_r1]
  rfl

/-- The projection body at entry (p, q). -/
theorem pay_proj (x0 : Vec Ideal S5000x128 .f32) (x1 : Vec Ideal S128x128 .f32) (x2 : Vec Ideal S1x128 .f32)
    (p : Fin 5000) (q : Fin 128) :
    k6_pay1 (F := Ideal) x0 x1 x2 (ix2 p q) = outProj x0 x1 (rowOf x2) (ix2 p q) := by
  rw [outProj_ix2, rowOf_ix1]
  unfold k6_pay1
  simp only [addf_apply, shapeCast_self, broadcastTo_1b_ab_apply]
  show FloatOps.matmul dot_S5000x128_S128x128_S5000x128_1_0_0_1_n_n none (truncf .bf16 x0 _) (truncf .bf16 x1 _)
      (constant (F := Ideal) S5000x128 .f32 0x00000000#32) (ix2 p q) + x2 (ix2 0 q) = _
  rw [matmul_zero_sum dot_S5000x128_S128x128_S5000x128_1_0_0_1_n_n none rfl rfl dotN_l0 dotN_l1 dotN_r0 dotN_r1]
  rfl

/-- The edge bodies of the second and third layer are the first layer's, and so are the node-update bodies. -/
theorem pay_edge2 (x0 : Vec Ideal S6000x128 .f32) (x1 : Vec Ideal S6000x16 .f32) (x2 : Vec Ideal S16x128 .f32)
    (x3 : Vec Ideal S1x128 .f32) (p : Fin 6000) (q : Fin 128) :
    k2_pay1 (F := Ideal) x0 x1 x2 x3 (ix2 p q) = edgeCombine x0 x1 x2 (rowOf x3) (ix2 p q) := pay_edge x0 x1 x2 x3 p q
theorem pay_edge4 (x0 : Vec Ideal S6000x128 .f32) (x1 : Vec Ideal S6000x16 .f32) (x2 : Vec Ideal S16x128 .f32)
    (x3 : Vec Ideal S1x128 .f32) (p : Fin 6000) (q : Fin 128) :
    k4_pay1 (F := Ideal) x0 x1 x2 x3 (ix2 p q) = edgeCombine x0 x1 x2 (rowOf x3) (ix2 p q) := pay_edge x0 x1 x2 x3 p q
theorem pay_node3 (x0 : Vec Ideal S5000x128 .f32) (x1 : Vec Ideal S128x128 .f32) (x2 : Vec Ideal S1x128 .f32)
    (p : Fin 5000) (q : Fin 128) :
    k3_pay1 (F := Ideal) x0 x1 x2 (ix2 p q) = nodeUpdate x0 x1 (rowOf x2) (ix2 p q) := pay_node x0 x1 x2 p q
theorem pay_node5 (x0 : Vec Ideal S5000x128 .f32) (x1 : Vec Ideal S128x128 .f32) (x2 : Vec Ideal S1x128 .f32)
    (p : Fin 5000) (q : Fin 128) :
    k5_pay1 (F := Ideal) x0 x1 x2 (ix2 p q) = nodeUpdate x0 x1 (rowOf x2) (ix2 p q) := pay_node x0 x1 x2 p q

end Cert.KernelIdeal.Pay

end
-- ==== Proof.KReg0.lean ====
/-
  Region 0 (the edge message kernel): the array it leaves.

  The grid has 100 points; point t reads rows [6000 t, 6000 t + 6000) of the gathered source rows and of the edge
  features, the whole 16 x 128 edge weight and the one bias row, and writes rows [6000 t, 6000 t + 6000) of the
  output. Block t of the output is therefore block t of `edgeCombine` of the four arrays as the region finds them,
  and the 100 blocks cover the 600000 rows: the output array ends holding `edgeCombine` of them.
-/
import proofs.«145857_j7275674599908_1_alg».proof.Proof.Gen.KernelIdeal.Frame
import proofs.«145857_j7275674599908_1_alg».proof.Proof.KPay
import Idealize.ShloMosaic.Lib.Pipeline.Value

set_option maxRecDepth 16384

noncomputable section

namespace Cert.KernelIdeal.Reg0

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat Cfg Window)
open Cert.Gcn Cert.EdgeGnn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked inputs and the output move with the point, the weight
    and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 100 := Nat.lt_of_lt_of_eq t.isLt N_0

/-- Row p of point t's block is row 6000 t + p of the array. -/
def row (t : Fin cfg0.N) (p : Fin 6000) : Fin 600000 := ⟨t.val * 6000 + p.val, by have := t_lt t; have := p.isLt; omega⟩

theorem emb0 (t : Fin cfg0.N) (p : Fin 6000) (q : Fin 128) :
    ((cfg0.win 0).blk t).view.emb (ix2 p q) = ix2 (row t p) q := by
  obtain ⟨e0, e1, -⟩ := idx_facts t
  funext a; apply Fin.ext
  match a with
  | ⟨0, _⟩ => show win0_0.index t (0 : Fin 2) * 6000 + 1 * p.val = t.val * 6000 + p.val; omega
  | ⟨1, _⟩ => show win0_0.index t (1 : Fin 2) * 128 + 1 * q.val = q.val; omega

theorem emb1 (t : Fin cfg0.N) (p : Fin 6000) (k : Fin 16) :
    ((cfg0.win 1).blk t).view.emb (ix2 p k) = ix2 (row t p) k := by
  obtain ⟨-, -, e0, e1, -⟩ := idx_facts t
  funext a; apply Fin.ext
  match a with
  | ⟨0, _⟩ => show win0_1.index t (0 : Fin 2) * 6000 + 1 * p.val = t.val * 6000 + p.val; omega
  | ⟨1, _⟩ => show win0_1.index t (1 : Fin 2) * 16 + 1 * k.val = k.val; omega

theorem emb2 (t : Fin cfg0.N) (k : Fin 16) (q : Fin 128) :
    ((cfg0.win 2).blk t).view.emb (ix2 k q) = ix2 k q := by
  obtain ⟨-, -, -, -, e0, e1, -⟩ := idx_facts t
  funext a; apply Fin.ext
  match a with
  | ⟨0, _⟩ => show win0_2.index t (0 : Fin 2) * 16 + 1 * k.val = k.val; omega
  | ⟨1, _⟩ => show win0_2.index t (1 : Fin 2) * 128 + 1 * q.val = q.val; omega

theorem emb3 (t : Fin cfg0.N) (z : Fin 1) (q : Fin 128) :
    ((cfg0.win 3).blk t).view.emb (ix2 z q) = ix2 z q := by
  obtain ⟨-, -, -, -, -, -, e0, e1, -⟩ := idx_facts t
  funext a; apply Fin.ext
  match a with
  | ⟨0, _⟩ => show win0_3.index t (0 : Fin 2) * 1 + 1 * z.val = z.val; omega
  | ⟨1, _⟩ => show win0_3.index t (1 : Fin 2) * 128 + 1 * q.val = q.val; omega

theorem emb4 (t : Fin cfg0.N) (p : Fin 6000) (q : Fin 128) :
    ((cfg0.win 4).blk t).view.emb (ix2 p q) = ix2 (row t p) q := by
  obtain ⟨-, -, -, -, -, -, -, -, e0, e1⟩ := idx_facts t
  funext a; apply Fin.ext
  match a with
  | ⟨0, _⟩ => show win0_4.index t (0 : Fin 2) * 6000 + 1 * p.val = t.val * 6000 + p.val; omega
  | ⟨1, _⟩ => show win0_4.index t (1 : Fin 2) * 128 + 1 * q.val = q.val; omega

/-- What the region leaves in its output array, as one function of the four arrays it reads. -/
abbrev G (c : Dev nD) : S600000x128.Idx → EReal :=
  edgeCombine (V c main_v19 : S600000x128.Idx → EReal) (V c main_arg2 : S600000x16.Idx → EReal) (V c main_v21 : S16x128.Idx → EReal)
    (rowOf (V c main_v24 : S1x128.Idx → EReal))

/-- What point t writes back is block t of `G`. -/
theorem flushed_eq (c : Dev nD) (t : Fin cfg0.N) :
    (dat0 V c).flushed 4 t = ((cfg0.win 4).blk t).view.read (Elt Ideal) (G V c) := by
  show (cfg0.win 4).cut (grid0.coords t) ((dat0 V c).after 4 t) = _
  rw [after0_4]
  unfold out0_4
  rw [View.canon_unit_zero hz]
  simp only [View.ld_unit_zero (S := S6000x128) hz, View.ld_unit_zero (S := S6000x16) hz, View.ld_unit_zero (S := S16x128) hz,
    View.ld_unit_zero (S := S1x128) hz]
  funext j
  obtain ⟨p, q, rfl⟩ : ∃ (p : Fin 6000) (q : Fin 128), j = ix2 p q := ⟨j 0, j 1, eq_ix2 j⟩
  refine (pay_edge (iblk0 V c 0 t) (iblk0 V c 1 t) (iblk0 V c 2 t) (iblk0 V c 3 t) p q).trans ?_
  show _ = G V c (((cfg0.win 4).blk t).view.emb (ix2 p q))
  rw [emb4 t p q]
  unfold G
  rw [edgeCombine_ix2, edgeCombine_ix2, rowOf_ix1, rowOf_ix1]
  have r0 : iblk0 V c 0 t (ix2 p q) = (V c main_v19 : S600000x128.Idx → EReal) (ix2 (row t p) q) := by
    show (V c main_v19 : S600000x128.Idx → EReal) (((cfg0.win 0).blk t).view.emb (ix2 p q)) = _
    rw [emb0 t p q]
  have r3 : iblk0 V c 3 t (ix2 (0 : Fin 1) q) = (V c main_v24 : S1x128.Idx → EReal) (ix2 (0 : Fin 1) q) := by
    show (V c main_v24 : S1x128.Idx → EReal) (((cfg0.win 3).blk t).view.emb (ix2 (0 : Fin 1) q)) = _
    rw [emb3 t 0 q]
  have r1 : ∀ k : Fin 16, iblk0 V c 1 t (ix2 p k) = (V c main_arg2 : S600000x16.Idx → EReal) (ix2 (row t p) k) := fun k => by
    show (V c main_arg2 : S600000x16.Idx → EReal) (((cfg0.win 1).blk t).view.emb (ix2 p k)) = _
    rw [emb1 t p k]
  have r2 : ∀ k : Fin 16, iblk0 V c 2 t (ix2 k q) = (V c main_v21 : S16x128.Idx → EReal) (ix2 k q) := fun k => by
    show (V c main_v21 : S16x128.Idx → EReal) (((cfg0.win 2).blk t).view.emb (ix2 k q)) = _
    rw [emb2 t k q]
  simp only [r0, r1, r2, r3]

/-- An index of the output array is in point t's block iff each coordinate is in the block's range. -/
theorem mem_blk (t : Fin cfg0.N) (i : S600000x128.Idx) :
    i ∈ ((cfg0.win 4).blk t).view.set ↔ ∀ a : Fin 2, win0_4.index t a * S6000x128.size a ≤ (i a).val ∧ (i a).val < win0_4.index t a * S6000x128.size a + S6000x128.size a := by
  show i ∈ ((View.whole main_v25).slice (win0_4.rect t)).set ↔ _
  rw [View.set_slice_whole, Rect.mem_set_unit]
  exact Iff.rfl

/-- Every row of the output is in the block of the point that is its row number divided by 6000. -/
theorem cover (i : S600000x128.Idx) : ∃ t : Fin cfg0.N, (cfg0.win 4).flush t = true ∧ i ∈ ((cfg0.win 4).blk t).view.set := by
  have hi0 : (i 0).val < 600000 := (i 0).isLt
  have hi1 : (i 1).val < 128 := (i 1).isLt
  let t : Fin cfg0.N := ⟨(i 0).val / 6000, Nat.lt_of_lt_of_eq (by omega : (i 0).val / 6000 < 100) N_0.symm⟩
  obtain ⟨-, -, -, -, -, -, -, -, e0, e1⟩ := idx_facts t
  have ht : t.val = (i 0).val / 6000 := rfl
  refine ⟨t, flush0_4 t, ?_⟩
  rw [mem_blk]
  intro a
  match a with
  | ⟨0, _⟩ => show win0_4.index t (0 : Fin 2) * 6000 ≤ (i 0).val ∧ (i 0).val < win0_4.index t (0 : Fin 2) * 6000 + 6000; omega
  | ⟨1, _⟩ => show win0_4.index t (1 : Fin 2) * 128 ≤ (i 1).val ∧ (i 1).val < win0_4.index t (1 : Fin 2) * 128 + 128; omega

/-- The output array after the region. -/
theorem final (c : Dev nD) : (dat0 V c).arrAt 4 cfg0.N = G V c :=
  (dat0 V c).arrAt_eq_of_cover 4 (G V c) (fun t _ => flushed_eq V c t) cover

end Cert.KernelIdeal.Reg0

end
-- ==== Proof.KReg1.lean ====
/-
  Region 1 (the node update kernel of layer 1): the array it leaves.

  The grid has 20 points; point t reads rows [5000 t, 5000 t + 5000) of the node matrix, the whole 128 x 128 weight
  and the one bias row, and writes rows [5000 t, 5000 t + 5000) of the output. Block t of the output is block t of
  `nodeUpdate` of the three arrays as the region finds them, and the 20 blocks cover the 100000 rows.
-/
import proofs.«145857_j7275674599908_1_alg».proof.Proof.Gen.KernelIdeal.Frame
import proofs.«145857_j7275674599908_1_alg».proof.Proof.KPay
import Idealize.ShloMosaic.Lib.Pipeline.Value

set_option maxRecDepth 16384

noncomputable section

namespace Cert.KernelIdeal.Reg1

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat Cfg Window)
open Cert.Gcn Cert.EdgeGnn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked input and the output move with the point, the weight and
    the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem t_lt (t : Fin cfg1.N) : t.val < 20 := Nat.lt_of_lt_of_eq t.isLt N_1

/-- Row p of point t's block is row 5000 t + p of the array. -/
def row (t : Fin cfg1.N) (p : Fin 5000) : Fin 100000 := ⟨t.val * 5000 + p.val, by have := t_lt t; have := p.isLt; omega⟩

theorem emb0 (t : Fin cfg1.N) (p : Fin 5000) (k : Fin 128) :
    ((cfg1.win 0).blk t).view.emb (ix2 p k) = ix2 (row t p) k := by
  obtain ⟨e0, e1, -⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

theorem emb1 (t : Fin cfg1.N) (k : Fin 128) (q : Fin 128) :
    ((cfg1.win 1).blk t).view.emb (ix2 k q) = ix2 k q := by
  obtain ⟨-, -, e0, e1, -⟩ := idx_facts t
  funext a; apply Fin.ext
  match a with
  | ⟨0, _⟩ => show win1_1.index t (0 : Fin 2) * 128 + 1 * k.val = k.val; omega
  | ⟨1, _⟩ => show win1_1.index t (1 : Fin 2) * 128 + 1 * q.val = q.val; omega

theorem emb2 (t : Fin cfg1.N) (z : Fin 1) (q : Fin 128) :
    ((cfg1.win 2).blk t).view.emb (ix2 z q) = ix2 z q := by
  obtain ⟨-, -, -, -, e0, e1, -⟩ := idx_facts t
  funext a; apply Fin.ext
  match a with
  | ⟨0, _⟩ => show win1_2.index t (0 : Fin 2) * 1 + 1 * z.val = z.val; omega
  | ⟨1, _⟩ => show win1_2.index t (1 : Fin 2) * 128 + 1 * q.val = q.val; omega

theorem emb3 (t : Fin cfg1.N) (p : Fin 5000) (q : Fin 128) :
    ((cfg1.win 3).blk t).view.emb (ix2 p q) = ix2 (row t p) q := by
  obtain ⟨-, -, -, -, -, -, e0, e1⟩ := idx_facts t
  funext a; apply Fin.ext
  match a with
  | ⟨0, _⟩ => show win1_3.index t (0 : Fin 2) * 5000 + 1 * p.val = t.val * 5000 + p.val; omega
  | ⟨1, _⟩ => show win1_3.index t (1 : Fin 2) * 128 + 1 * q.val = q.val; omega

/-- What the region leaves in its output array, as one function of the three arrays it reads. -/
abbrev G (c : Dev nD) : S100000x128.Idx → EReal :=
  nodeUpdate (V c main_v30 : S100000x128.Idx → EReal) (V c main_v32 : S128x128.Idx → EReal) (rowOf (V c main_v35 : S1x128.Idx → EReal))

/-- What point t writes back is block t of `G`. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (pay_node (iblk1 V c 0 t) (iblk1 V c 1 t) (iblk1 V c 2 t) p q).trans ?_
  show _ = G V c (((cfg1.win 3).blk t).view.emb (ix2 p q))
  rw [emb3 t p q]
  unfold G
  rw [nodeUpdate_ix2, nodeUpdate_ix2, rowOf_ix1, rowOf_ix1]
  have r2 : iblk1 V c 2 t (ix2 (0 : Fin 1) q) = (V c main_v35 : S1x128.Idx → EReal) (ix2 (0 : Fin 1) q) := by
    show (V c main_v35 : S1x128.Idx → EReal) (((cfg1.win 2).blk t).view.emb (ix2 (0 : Fin 1) q)) = _
    rw [emb2 t 0 q]
  have r0 : ∀ k : Fin 128, iblk1 V c 0 t (ix2 p k) = (V c main_v30 : S100000x128.Idx → EReal) (ix2 (row t p) k) := fun k => by
    show (V c main_v30 : S100000x128.Idx → EReal) (((cfg1.win 0).blk t).view.emb (ix2 p k)) = _
    rw [emb0 t p k]
  have r1 : ∀ k : Fin 128, iblk1 V c 1 t (ix2 k q) = (V c main_v32 : S128x128.Idx → EReal) (ix2 k q) := fun k => by
    show (V c main_v32 : S128x128.Idx → EReal) (((cfg1.win 1).blk t).view.emb (ix2 k q)) = _
    rw [emb1 t k q]
  simp only [r0, r1, r2]

/-- An index of the output array is in point t's block iff each coordinate is in the block's range. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v36).slice (win1_3.rect t)).set ↔ _
  rw [View.set_slice_whole, Rect.mem_set_unit]
  exact Iff.rfl

/-- Every row of the output is in the block of the point that is its row number divided by 5000. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  let t : Fin cfg1.N := ⟨(i 0).val / 5000, Nat.lt_of_lt_of_eq (by omega : (i 0).val / 5000 < 20) N_1.symm⟩
  obtain ⟨-, -, -, -, -, -, e0, e1⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after the region. -/
theorem final (c : Dev nD) : (dat1 V c).arrAt 3 cfg1.N = G V c :=
  (dat1 V c).arrAt_eq_of_cover 3 (G V c) (fun t _ => flushed_eq V c t) cover

end Cert.KernelIdeal.Reg1

end
-- ==== Proof.KReg2.lean ====
/-
  Region 2 (the edge message kernel of layer 2): the array it leaves.

  The grid has 100 points; point t reads rows [6000 t, 6000 t + 6000) of the gathered source rows and of the edge
  features, the whole 16 x 128 edge weight and the one bias row, and writes rows [6000 t, 6000 t + 6000) of the
  output. Block t of the output is therefore block t of `edgeCombine` of the four arrays as the region finds them,
  and the 100 blocks cover the 600000 rows: the output array ends holding `edgeCombine` of them.
-/
import proofs.«145857_j7275674599908_1_alg».proof.Proof.Gen.KernelIdeal.Frame
import proofs.«145857_j7275674599908_1_alg».proof.Proof.KPay
import Idealize.ShloMosaic.Lib.Pipeline.Value

set_option maxRecDepth 16384

noncomputable section

namespace Cert.KernelIdeal.Reg2

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat Cfg Window)
open Cert.Gcn Cert.EdgeGnn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked inputs and the output move with the point, the weight
    and the bias stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem t_lt (t : Fin cfg2.N) : t.val < 100 := Nat.lt_of_lt_of_eq t.isLt N_2

/-- Row p of point t's block is row 6000 t + p of the array. -/
def row (t : Fin cfg2.N) (p : Fin 6000) : Fin 600000 := ⟨t.val * 6000 + p.val, by have := t_lt t; have := p.isLt; omega⟩

theorem emb0 (t : Fin cfg2.N) (p : Fin 6000) (q : Fin 128) :
    ((cfg2.win 0).blk t).view.emb (ix2 p q) = ix2 (row t p) q := by
  obtain ⟨e0, e1, -⟩ := idx_facts t
  funext a; apply Fin.ext
  match a with
  | ⟨0, _⟩ => show win2_0.index t (0 : Fin 2) * 6000 + 1 * p.val = t.val * 6000 + p.val; omega
  | ⟨1, _⟩ => show win2_0.index t (1 : Fin 2) * 128 + 1 * q.val = q.val; omega

theorem emb1 (t : Fin cfg2.N) (p : Fin 6000) (k : Fin 16) :
    ((cfg2.win 1).blk t).view.emb (ix2 p k) = ix2 (row t p) k := by
  obtain ⟨-, -, e0, e1, -⟩ := idx_facts t
  funext a; apply Fin.ext
  match a with
  | ⟨0, _⟩ => show win2_1.index t (0 : Fin 2) * 6000 + 1 * p.val = t.val * 6000 + p.val; omega
  | ⟨1, _⟩ => show win2_1.index t (1 : Fin 2) * 16 + 1 * k.val = k.val; omega

theorem emb2 (t : Fin cfg2.N) (k : Fin 16) (q : Fin 128) :
    ((cfg2.win 2).blk t).view.emb (ix2 k q) = ix2 k q := by
  obtain ⟨-, -, -, -, e0, e1, -⟩ := idx_facts t
  funext a; apply Fin.ext
  match a with
  | ⟨0, _⟩ => show win2_2.index t (0 : Fin 2) * 16 + 1 * k.val = k.val; omega
  | ⟨1, _⟩ => show win2_2.index t (1 : Fin 2) * 128 + 1 * q.val = q.val; omega

theorem emb3 (t : Fin cfg2.N) (z : Fin 1) (q : Fin 128) :
    ((cfg2.win 3).blk t).view.emb (ix2 z q) = ix2 z q := by
  obtain ⟨-, -, -, -, -, -, e0, e1, -⟩ := idx_facts t
  funext a; apply Fin.ext
  match a with
  | ⟨0, _⟩ => show win2_3.index t (0 : Fin 2) * 1 + 1 * z.val = z.val; omega
  | ⟨1, _⟩ => show win2_3.index t (1 : Fin 2) * 128 + 1 * q.val = q.val; omega

theorem emb4 (t : Fin cfg2.N) (p : Fin 6000) (q : Fin 128) :
    ((cfg2.win 4).blk t).view.emb (ix2 p q) = ix2 (row t p) q := by
  obtain ⟨-, -, -, -, -, -, -, -, e0, e1⟩ := idx_facts t
  funext a; apply Fin.ext
  match a with
  | ⟨0, _⟩ => show win2_4.index t (0 : Fin 2) * 6000 + 1 * p.val = t.val * 6000 + p.val; omega
  | ⟨1, _⟩ => show win2_4.index t (1 : Fin 2) * 128 + 1 * q.val = q.val; omega

/-- What the region leaves in its output array, as one function of the four arrays it reads. -/
abbrev G (c : Dev nD) : S600000x128.Idx → EReal :=
  edgeCombine (V c main_v43 : S600000x128.Idx → EReal) (V c main_arg2 : S600000x16.Idx → EReal) (V c main_v45 : S16x128.Idx → EReal)
    (rowOf (V c main_v48 : S1x128.Idx → EReal))

/-- What point t writes back is block t of `G`. -/
theorem flushed_eq (c : Dev nD) (t : Fin cfg2.N) :
    (dat2 V c).flushed 4 t = ((cfg2.win 4).blk t).view.read (Elt Ideal) (G V c) := by
  show (cfg2.win 4).cut (grid2.coords t) ((dat2 V c).after 4 t) = _
  rw [after2_4]
  unfold out2_4
  rw [View.canon_unit_zero hz]
  simp only [View.ld_unit_zero (S := S6000x128) hz, View.ld_unit_zero (S := S6000x16) hz, View.ld_unit_zero (S := S16x128) hz,
    View.ld_unit_zero (S := S1x128) hz]
  funext j
  obtain ⟨p, q, rfl⟩ : ∃ (p : Fin 6000) (q : Fin 128), j = ix2 p q := ⟨j 0, j 1, eq_ix2 j⟩
  refine (pay_edge2 (iblk2 V c 0 t) (iblk2 V c 1 t) (iblk2 V c 2 t) (iblk2 V c 3 t) p q).trans ?_
  show _ = G V c (((cfg2.win 4).blk t).view.emb (ix2 p q))
  rw [emb4 t p q]
  unfold G
  rw [edgeCombine_ix2, edgeCombine_ix2, rowOf_ix1, rowOf_ix1]
  have r0 : iblk2 V c 0 t (ix2 p q) = (V c main_v43 : S600000x128.Idx → EReal) (ix2 (row t p) q) := by
    show (V c main_v43 : S600000x128.Idx → EReal) (((cfg2.win 0).blk t).view.emb (ix2 p q)) = _
    rw [emb0 t p q]
  have r3 : iblk2 V c 3 t (ix2 (0 : Fin 1) q) = (V c main_v48 : S1x128.Idx → EReal) (ix2 (0 : Fin 1) q) := by
    show (V c main_v48 : S1x128.Idx → EReal) (((cfg2.win 3).blk t).view.emb (ix2 (0 : Fin 1) q)) = _
    rw [emb3 t 0 q]
  have r1 : ∀ k : Fin 16, iblk2 V c 1 t (ix2 p k) = (V c main_arg2 : S600000x16.Idx → EReal) (ix2 (row t p) k) := fun k => by
    show (V c main_arg2 : S600000x16.Idx → EReal) (((cfg2.win 1).blk t).view.emb (ix2 p k)) = _
    rw [emb1 t p k]
  have r2 : ∀ k : Fin 16, iblk2 V c 2 t (ix2 k q) = (V c main_v45 : S16x128.Idx → EReal) (ix2 k q) := fun k => by
    show (V c main_v45 : S16x128.Idx → EReal) (((cfg2.win 2).blk t).view.emb (ix2 k q)) = _
    rw [emb2 t k q]
  simp only [r0, r1, r2, r3]

/-- An index of the output array is in point t's block iff each coordinate is in the block's range. -/
theorem mem_blk (t : Fin cfg2.N) (i : S600000x128.Idx) :
    i ∈ ((cfg2.win 4).blk t).view.set ↔ ∀ a : Fin 2, win2_4.index t a * S6000x128.size a ≤ (i a).val ∧ (i a).val < win2_4.index t a * S6000x128.size a + S6000x128.size a := by
  show i ∈ ((View.whole main_v49).slice (win2_4.rect t)).set ↔ _
  rw [View.set_slice_whole, Rect.mem_set_unit]
  exact Iff.rfl

/-- Every row of the output is in the block of the point that is its row number divided by 6000. -/
theorem cover (i : S600000x128.Idx) : ∃ t : Fin cfg2.N, (cfg2.win 4).flush t = true ∧ i ∈ ((cfg2.win 4).blk t).view.set := by
  have hi0 : (i 0).val < 600000 := (i 0).isLt
  have hi1 : (i 1).val < 128 := (i 1).isLt
  let t : Fin cfg2.N := ⟨(i 0).val / 6000, Nat.lt_of_lt_of_eq (by omega : (i 0).val / 6000 < 100) N_2.symm⟩
  obtain ⟨-, -, -, -, -, -, -, -, e0, e1⟩ := idx_facts t
  have ht : t.val = (i 0).val / 6000 := rfl
  refine ⟨t, flush2_4 t, ?_⟩
  rw [mem_blk]
  intro a
  match a with
  | ⟨0, _⟩ => show win2_4.index t (0 : Fin 2) * 6000 ≤ (i 0).val ∧ (i 0).val < win2_4.index t (0 : Fin 2) * 6000 + 6000; omega
  | ⟨1, _⟩ => show win2_4.index t (1 : Fin 2) * 128 ≤ (i 1).val ∧ (i 1).val < win2_4.index t (1 : Fin 2) * 128 + 128; omega

/-- The output array after the region. -/
theorem final (c : Dev nD) : (dat2 V c).arrAt 4 cfg2.N = G V c :=
  (dat2 V c).arrAt_eq_of_cover 4 (G V c) (fun t _ => flushed_eq V c t) cover

end Cert.KernelIdeal.Reg2

end
-- ==== Proof.KReg3.lean ====
/-
  Region 3 (the node update kernel of layer 2): the array it leaves.

  The grid has 20 points; point t reads rows [5000 t, 5000 t + 5000) of the node matrix, the whole 128 x 128 weight
  and the one bias row, and writes rows [5000 t, 5000 t + 5000) of the output. Block t of the output is block t of
  `nodeUpdate` of the three arrays as the region finds them, and the 20 blocks cover the 100000 rows.
-/
import proofs.«145857_j7275674599908_1_alg».proof.Proof.Gen.KernelIdeal.Frame
import proofs.«145857_j7275674599908_1_alg».proof.Proof.KPay
import Idealize.ShloMosaic.Lib.Pipeline.Value

set_option maxRecDepth 16384

noncomputable section

namespace Cert.KernelIdeal.Reg3

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat Cfg Window)
open Cert.Gcn Cert.EdgeGnn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked input and the output move with the point, the weight and
    the bias stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem t_lt (t : Fin cfg3.N) : t.val < 20 := Nat.lt_of_lt_of_eq t.isLt N_3

/-- Row p of point t's block is row 5000 t + p of the array. -/
def row (t : Fin cfg3.N) (p : Fin 5000) : Fin 100000 := ⟨t.val * 5000 + p.val, by have := t_lt t; have := p.isLt; omega⟩

theorem emb0 (t : Fin cfg3.N) (p : Fin 5000) (k : Fin 128) :
    ((cfg3.win 0).blk t).view.emb (ix2 p k) = ix2 (row t p) k := by
  obtain ⟨e0, e1, -⟩ := idx_facts t
  funext a; apply Fin.ext
  match a with
  | ⟨0, _⟩ => show win3_0.index t (0 : Fin 2) * 5000 + 1 * p.val = t.val * 5000 + p.val; omega
  | ⟨1, _⟩ => show win3_0.index t (1 : Fin 2) * 128 + 1 * k.val = k.val; omega

theorem emb1 (t : Fin cfg3.N) (k : Fin 128) (q : Fin 128) :
    ((cfg3.win 1).blk t).view.emb (ix2 k q) = ix2 k q := by
  obtain ⟨-, -, e0, e1, -⟩ := idx_facts t
  funext a; apply Fin.ext
  match a with
  | ⟨0, _⟩ => show win3_1.index t (0 : Fin 2) * 128 + 1 * k.val = k.val; omega
  | ⟨1, _⟩ => show win3_1.index t (1 : Fin 2) * 128 + 1 * q.val = q.val; omega

theorem emb2 (t : Fin cfg3.N) (z : Fin 1) (q : Fin 128) :
    ((cfg3.win 2).blk t).view.emb (ix2 z q) = ix2 z q := by
  obtain ⟨-, -, -, -, e0, e1, -⟩ := idx_facts t
  funext a; apply Fin.ext
  match a with
  | ⟨0, _⟩ => show win3_2.index t (0 : Fin 2) * 1 + 1 * z.val = z.val; omega
  | ⟨1, _⟩ => show win3_2.index t (1 : Fin 2) * 128 + 1 * q.val = q.val; omega

theorem emb3 (t : Fin cfg3.N) (p : Fin 5000) (q : Fin 128) :
    ((cfg3.win 3).blk t).view.emb (ix2 p q) = ix2 (row t p) q := by
  obtain ⟨-, -, -, -, -, -, e0, e1⟩ := idx_facts t
  funext a; apply Fin.ext
  match a with
  | ⟨0, _⟩ => show win3_3.index t (0 : Fin 2) * 5000 + 1 * p.val = t.val * 5000 + p.val; omega
  | ⟨1, _⟩ => show win3_3.index t (1 : Fin 2) * 128 + 1 * q.val = q.val; omega

/-- What the region leaves in its output array, as one function of the three arrays it reads. -/
abbrev G (c : Dev nD) : S100000x128.Idx → EReal :=
  nodeUpdate (V c main_v54 : S100000x128.Idx → EReal) (V c main_v56 : S128x128.Idx → EReal) (rowOf (V c main_v59 : S1x128.Idx → EReal))

/-- What point t writes back is block t of `G`. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (pay_node3 (iblk3 V c 0 t) (iblk3 V c 1 t) (iblk3 V c 2 t) p q).trans ?_
  show _ = G V c (((cfg3.win 3).blk t).view.emb (ix2 p q))
  rw [emb3 t p q]
  unfold G
  rw [nodeUpdate_ix2, nodeUpdate_ix2, rowOf_ix1, rowOf_ix1]
  have r2 : iblk3 V c 2 t (ix2 (0 : Fin 1) q) = (V c main_v59 : S1x128.Idx → EReal) (ix2 (0 : Fin 1) q) := by
    show (V c main_v59 : S1x128.Idx → EReal) (((cfg3.win 2).blk t).view.emb (ix2 (0 : Fin 1) q)) = _
    rw [emb2 t 0 q]
  have r0 : ∀ k : Fin 128, iblk3 V c 0 t (ix2 p k) = (V c main_v54 : S100000x128.Idx → EReal) (ix2 (row t p) k) := fun k => by
    show (V c main_v54 : S100000x128.Idx → EReal) (((cfg3.win 0).blk t).view.emb (ix2 p k)) = _
    rw [emb0 t p k]
  have r1 : ∀ k : Fin 128, iblk3 V c 1 t (ix2 k q) = (V c main_v56 : S128x128.Idx → EReal) (ix2 k q) := fun k => by
    show (V c main_v56 : S128x128.Idx → EReal) (((cfg3.win 1).blk t).view.emb (ix2 k q)) = _
    rw [emb1 t k q]
  simp only [r0, r1, r2]

/-- An index of the output array is in point t's block iff each coordinate is in the block's range. -/
theorem mem_blk (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v60).slice (win3_3.rect t)).set ↔ _
  rw [View.set_slice_whole, Rect.mem_set_unit]
  exact Iff.rfl

/-- Every row of the output is in the block of the point that is its row number divided by 5000. -/
theorem cover (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  let t : Fin cfg3.N := ⟨(i 0).val / 5000, Nat.lt_of_lt_of_eq (by omega : (i 0).val / 5000 < 20) N_3.symm⟩
  obtain ⟨-, -, -, -, -, -, e0, e1⟩ := idx_facts t
  have ht : t.val = (i 0).val / 5000 := rfl
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The output array after the region. -/
theorem final (c : Dev nD) : (dat3 V c).arrAt 3 cfg3.N = G V c :=
  (dat3 V c).arrAt_eq_of_cover 3 (G V c) (fun t _ => flushed_eq V c t) cover

end Cert.KernelIdeal.Reg3

end
-- ==== Proof.KReg4.lean ====
/-
  Region 4 (the edge message kernel of layer 3): the array it leaves.

  The grid has 100 points; point t reads rows [6000 t, 6000 t + 6000) of the gathered source rows and of the edge
  features, the whole 16 x 128 edge weight and the one bias row, and writes rows [6000 t, 6000 t + 6000) of the
  output. Block t of the output is therefore block t of `edgeCombine` of the four arrays as the region finds them,
  and the 100 blocks cover the 600000 rows: the output array ends holding `edgeCombine` of them.
-/
import proofs.«145857_j7275674599908_1_alg».proof.Proof.Gen.KernelIdeal.Frame
import proofs.«145857_j7275674599908_1_alg».proof.Proof.KPay
import Idealize.ShloMosaic.Lib.Pipeline.Value

set_option maxRecDepth 16384

noncomputable section

namespace Cert.KernelIdeal.Reg4

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat Cfg Window)
open Cert.Gcn Cert.EdgeGnn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked inputs and the output move with the point, the weight
    and the bias stay. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

theorem t_lt (t : Fin cfg4.N) : t.val < 100 := Nat.lt_of_lt_of_eq t.isLt N_4

/-- Row p of point t's block is row 6000 t + p of the array. -/
def row (t : Fin cfg4.N) (p : Fin 6000) : Fin 600000 := ⟨t.val * 6000 + p.val, by have := t_lt t; have := p.isLt; omega⟩

theorem emb0 (t : Fin cfg4.N) (p : Fin 6000) (q : Fin 128) :
    ((cfg4.win 0).blk t).view.emb (ix2 p q) = ix2 (row t p) q := by
  obtain ⟨e0, e1, -⟩ := idx_facts t
  funext a; apply Fin.ext
  match a with
  | ⟨0, _⟩ => show win4_0.index t (0 : Fin 2) * 6000 + 1 * p.val = t.val * 6000 + p.val; omega
  | ⟨1, _⟩ => show win4_0.index t (1 : Fin 2) * 128 + 1 * q.val = q.val; omega

theorem emb1 (t : Fin cfg4.N) (p : Fin 6000) (k : Fin 16) :
    ((cfg4.win 1).blk t).view.emb (ix2 p k) = ix2 (row t p) k := by
  obtain ⟨-, -, e0, e1, -⟩ := idx_facts t
  funext a; apply Fin.ext
  match a with
  | ⟨0, _⟩ => show win4_1.index t (0 : Fin 2) * 6000 + 1 * p.val = t.val * 6000 + p.val; omega
  | ⟨1, _⟩ => show win4_1.index t (1 : Fin 2) * 16 + 1 * k.val = k.val; omega

theorem emb2 (t : Fin cfg4.N) (k : Fin 16) (q : Fin 128) :
    ((cfg4.win 2).blk t).view.emb (ix2 k q) = ix2 k q := by
  obtain ⟨-, -, -, -, e0, e1, -⟩ := idx_facts t
  funext a; apply Fin.ext
  match a with
  | ⟨0, _⟩ => show win4_2.index t (0 : Fin 2) * 16 + 1 * k.val = k.val; omega
  | ⟨1, _⟩ => show win4_2.index t (1 : Fin 2) * 128 + 1 * q.val = q.val; omega

theorem emb3 (t : Fin cfg4.N) (z : Fin 1) (q : Fin 128) :
    ((cfg4.win 3).blk t).view.emb (ix2 z q) = ix2 z q := by
  obtain ⟨-, -, -, -, -, -, e0, e1, -⟩ := idx_facts t
  funext a; apply Fin.ext
  match a with
  | ⟨0, _⟩ => show win4_3.index t (0 : Fin 2) * 1 + 1 * z.val = z.val; omega
  | ⟨1, _⟩ => show win4_3.index t (1 : Fin 2) * 128 + 1 * q.val = q.val; omega

theorem emb4 (t : Fin cfg4.N) (p : Fin 6000) (q : Fin 128) :
    ((cfg4.win 4).blk t).view.emb (ix2 p q) = ix2 (row t p) q := by
  obtain ⟨-, -, -, -, -, -, -, -, e0, e1⟩ := idx_facts t
  funext a; apply Fin.ext
  match a with
  | ⟨0, _⟩ => show win4_4.index t (0 : Fin 2) * 6000 + 1 * p.val = t.val * 6000 + p.val; omega
  | ⟨1, _⟩ => show win4_4.index t (1 : Fin 2) * 128 + 1 * q.val = q.val; omega

/-- What the region leaves in its output array, as one function of the four arrays it reads. -/
abbrev G (c : Dev nD) : S600000x128.Idx → EReal :=
  edgeCombine (V c main_v67 : S600000x128.Idx → EReal) (V c main_arg2 : S600000x16.Idx → EReal) (V c main_v69 : S16x128.Idx → EReal)
    (rowOf (V c main_v72 : S1x128.Idx → EReal))

/-- What point t writes back is block t of `G`. -/
theorem flushed_eq (c : Dev nD) (t : Fin cfg4.N) :
    (dat4 V c).flushed 4 t = ((cfg4.win 4).blk t).view.read (Elt Ideal) (G V c) := by
  show (cfg4.win 4).cut (grid4.coords t) ((dat4 V c).after 4 t) = _
  rw [after4_4]
  unfold out4_4
  rw [View.canon_unit_zero hz]
  simp only [View.ld_unit_zero (S := S6000x128) hz, View.ld_unit_zero (S := S6000x16) hz, View.ld_unit_zero (S := S16x128) hz,
    View.ld_unit_zero (S := S1x128) hz]
  funext j
  obtain ⟨p, q, rfl⟩ : ∃ (p : Fin 6000) (q : Fin 128), j = ix2 p q := ⟨j 0, j 1, eq_ix2 j⟩
  refine (pay_edge4 (iblk4 V c 0 t) (iblk4 V c 1 t) (iblk4 V c 2 t) (iblk4 V c 3 t) p q).trans ?_
  show _ = G V c (((cfg4.win 4).blk t).view.emb (ix2 p q))
  rw [emb4 t p q]
  unfold G
  rw [edgeCombine_ix2, edgeCombine_ix2, rowOf_ix1, rowOf_ix1]
  have r0 : iblk4 V c 0 t (ix2 p q) = (V c main_v67 : S600000x128.Idx → EReal) (ix2 (row t p) q) := by
    show (V c main_v67 : S600000x128.Idx → EReal) (((cfg4.win 0).blk t).view.emb (ix2 p q)) = _
    rw [emb0 t p q]
  have r3 : iblk4 V c 3 t (ix2 (0 : Fin 1) q) = (V c main_v72 : S1x128.Idx → EReal) (ix2 (0 : Fin 1) q) := by
    show (V c main_v72 : S1x128.Idx → EReal) (((cfg4.win 3).blk t).view.emb (ix2 (0 : Fin 1) q)) = _
    rw [emb3 t 0 q]
  have r1 : ∀ k : Fin 16, iblk4 V c 1 t (ix2 p k) = (V c main_arg2 : S600000x16.Idx → EReal) (ix2 (row t p) k) := fun k => by
    show (V c main_arg2 : S600000x16.Idx → EReal) (((cfg4.win 1).blk t).view.emb (ix2 p k)) = _
    rw [emb1 t p k]
  have r2 : ∀ k : Fin 16, iblk4 V c 2 t (ix2 k q) = (V c main_v69 : S16x128.Idx → EReal) (ix2 k q) := fun k => by
    show (V c main_v69 : S16x128.Idx → EReal) (((cfg4.win 2).blk t).view.emb (ix2 k q)) = _
    rw [emb2 t k q]
  simp only [r0, r1, r2, r3]

/-- An index of the output array is in point t's block iff each coordinate is in the block's range. -/
theorem mem_blk (t : Fin cfg4.N) (i : S600000x128.Idx) :
    i ∈ ((cfg4.win 4).blk t).view.set ↔ ∀ a : Fin 2, win4_4.index t a * S6000x128.size a ≤ (i a).val ∧ (i a).val < win4_4.index t a * S6000x128.size a + S6000x128.size a := by
  show i ∈ ((View.whole main_v73).slice (win4_4.rect t)).set ↔ _
  rw [View.set_slice_whole, Rect.mem_set_unit]
  exact Iff.rfl

/-- Every row of the output is in the block of the point that is its row number divided by 6000. -/
theorem cover (i : S600000x128.Idx) : ∃ t : Fin cfg4.N, (cfg4.win 4).flush t = true ∧ i ∈ ((cfg4.win 4).blk t).view.set := by
  have hi0 : (i 0).val < 600000 := (i 0).isLt
  have hi1 : (i 1).val < 128 := (i 1).isLt
  let t : Fin cfg4.N := ⟨(i 0).val / 6000, Nat.lt_of_lt_of_eq (by omega : (i 0).val / 6000 < 100) N_4.symm⟩
  obtain ⟨-, -, -, -, -, -, -, -, e0, e1⟩ := idx_facts t
  have ht : t.val = (i 0).val / 6000 := rfl
  refine ⟨t, flush4_4 t, ?_⟩
  rw [mem_blk]
  intro a
  match a with
  | ⟨0, _⟩ => show win4_4.index t (0 : Fin 2) * 6000 ≤ (i 0).val ∧ (i 0).val < win4_4.index t (0 : Fin 2) * 6000 + 6000; omega
  | ⟨1, _⟩ => show win4_4.index t (1 : Fin 2) * 128 ≤ (i 1).val ∧ (i 1).val < win4_4.index t (1 : Fin 2) * 128 + 128; omega

/-- The output array after the region. -/
theorem final (c : Dev nD) : (dat4 V c).arrAt 4 cfg4.N = G V c :=
  (dat4 V c).arrAt_eq_of_cover 4 (G V c) (fun t _ => flushed_eq V c t) cover

end Cert.KernelIdeal.Reg4

end
-- ==== Proof.KReg5.lean ====
/-
  Region 5 (the node update kernel of layer 3): the array it leaves.

  The grid has 20 points; point t reads rows [5000 t, 5000 t + 5000) of the node matrix, the whole 128 x 128 weight
  and the one bias row, and writes rows [5000 t, 5000 t + 5000) of the output. Block t of the output is block t of
  `nodeUpdate` of the three arrays as the region finds them, and the 20 blocks cover the 100000 rows.
-/
import proofs.«145857_j7275674599908_1_alg».proof.Proof.Gen.KernelIdeal.Frame
import proofs.«145857_j7275674599908_1_alg».proof.Proof.KPay
import Idealize.ShloMosaic.Lib.Pipeline.Value

set_option maxRecDepth 16384

noncomputable section

namespace Cert.KernelIdeal.Reg5

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat Cfg Window)
open Cert.Gcn Cert.EdgeGnn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked input and the output move with the point, the weight and
    the bias stay. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

theorem t_lt (t : Fin cfg5.N) : t.val < 20 := Nat.lt_of_lt_of_eq t.isLt N_5

/-- Row p of point t's block is row 5000 t + p of the array. -/
def row (t : Fin cfg5.N) (p : Fin 5000) : Fin 100000 := ⟨t.val * 5000 + p.val, by have := t_lt t; have := p.isLt; omega⟩

theorem emb0 (t : Fin cfg5.N) (p : Fin 5000) (k : Fin 128) :
    ((cfg5.win 0).blk t).view.emb (ix2 p k) = ix2 (row t p) k := by
  obtain ⟨e0, e1, -⟩ := idx_facts t
  funext a; apply Fin.ext
  match a with
  | ⟨0, _⟩ => show win5_0.index t (0 : Fin 2) * 5000 + 1 * p.val = t.val * 5000 + p.val; omega
  | ⟨1, _⟩ => show win5_0.index t (1 : Fin 2) * 128 + 1 * k.val = k.val; omega

theorem emb1 (t : Fin cfg5.N) (k : Fin 128) (q : Fin 128) :
    ((cfg5.win 1).blk t).view.emb (ix2 k q) = ix2 k q := by
  obtain ⟨-, -, e0, e1, -⟩ := idx_facts t
  funext a; apply Fin.ext
  match a with
  | ⟨0, _⟩ => show win5_1.index t (0 : Fin 2) * 128 + 1 * k.val = k.val; omega
  | ⟨1, _⟩ => show win5_1.index t (1 : Fin 2) * 128 + 1 * q.val = q.val; omega

theorem emb2 (t : Fin cfg5.N) (z : Fin 1) (q : Fin 128) :
    ((cfg5.win 2).blk t).view.emb (ix2 z q) = ix2 z q := by
  obtain ⟨-, -, -, -, e0, e1, -⟩ := idx_facts t
  funext a; apply Fin.ext
  match a with
  | ⟨0, _⟩ => show win5_2.index t (0 : Fin 2) * 1 + 1 * z.val = z.val; omega
  | ⟨1, _⟩ => show win5_2.index t (1 : Fin 2) * 128 + 1 * q.val = q.val; omega

theorem emb3 (t : Fin cfg5.N) (p : Fin 5000) (q : Fin 128) :
    ((cfg5.win 3).blk t).view.emb (ix2 p q) = ix2 (row t p) q := by
  obtain ⟨-, -, -, -, -, -, e0, e1⟩ := idx_facts t
  funext a; apply Fin.ext
  match a with
  | ⟨0, _⟩ => show win5_3.index t (0 : Fin 2) * 5000 + 1 * p.val = t.val * 5000 + p.val; omega
  | ⟨1, _⟩ => show win5_3.index t (1 : Fin 2) * 128 + 1 * q.val = q.val; omega

/-- What the region leaves in its output array, as one function of the three arrays it reads. -/
abbrev G (c : Dev nD) : S100000x128.Idx → EReal :=
  nodeUpdate (V c main_v78 : S100000x128.Idx → EReal) (V c main_v80 : S128x128.Idx → EReal) (rowOf (V c main_v83 : S1x128.Idx → EReal))

/-- What point t writes back is block t of `G`. -/
theorem flushed_eq (c : Dev nD) (t : Fin cfg5.N) :
    (dat5 V c).flushed 3 t = ((cfg5.win 3).blk t).view.read (Elt Ideal) (G V c) := by
  show (cfg5.win 3).cut (grid5.coords t) ((dat5 V c).after 3 t) = _
  rw [after5_3]
  unfold out5_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (pay_node5 (iblk5 V c 0 t) (iblk5 V c 1 t) (iblk5 V c 2 t) p q).trans ?_
  show _ = G V c (((cfg5.win 3).blk t).view.emb (ix2 p q))
  rw [emb3 t p q]
  unfold G
  rw [nodeUpdate_ix2, nodeUpdate_ix2, rowOf_ix1, rowOf_ix1]
  have r2 : iblk5 V c 2 t (ix2 (0 : Fin 1) q) = (V c main_v83 : S1x128.Idx → EReal) (ix2 (0 : Fin 1) q) := by
    show (V c main_v83 : S1x128.Idx → EReal) (((cfg5.win 2).blk t).view.emb (ix2 (0 : Fin 1) q)) = _
    rw [emb2 t 0 q]
  have r0 : ∀ k : Fin 128, iblk5 V c 0 t (ix2 p k) = (V c main_v78 : S100000x128.Idx → EReal) (ix2 (row t p) k) := fun k => by
    show (V c main_v78 : S100000x128.Idx → EReal) (((cfg5.win 0).blk t).view.emb (ix2 p k)) = _
    rw [emb0 t p k]
  have r1 : ∀ k : Fin 128, iblk5 V c 1 t (ix2 k q) = (V c main_v80 : S128x128.Idx → EReal) (ix2 k q) := fun k => by
    show (V c main_v80 : S128x128.Idx → EReal) (((cfg5.win 1).blk t).view.emb (ix2 k q)) = _
    rw [emb1 t k q]
  simp only [r0, r1, r2]

/-- An index of the output array is in point t's block iff each coordinate is in the block's range. -/
theorem mem_blk (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v84).slice (win5_3.rect t)).set ↔ _
  rw [View.set_slice_whole, Rect.mem_set_unit]
  exact Iff.rfl

/-- Every row of the output is in the block of the point that is its row number divided by 5000. -/
theorem cover (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  let t : Fin cfg5.N := ⟨(i 0).val / 5000, Nat.lt_of_lt_of_eq (by omega : (i 0).val / 5000 < 20) N_5.symm⟩
  obtain ⟨-, -, -, -, -, -, e0, e1⟩ := idx_facts t
  have ht : t.val = (i 0).val / 5000 := rfl
  refine ⟨t, flush5_3 t, ?_⟩
  rw [mem_blk]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- The output array after the region. -/
theorem final (c : Dev nD) : (dat5 V c).arrAt 3 cfg5.N = G V c :=
  (dat5 V c).arrAt_eq_of_cover 3 (G V c) (fun t _ => flushed_eq V c t) cover

end Cert.KernelIdeal.Reg5

end
-- ==== Proof.KReg6.lean ====
/-
  Region 6 (the output projection kernel): the array it leaves.

  The grid has 20 points; point t reads rows [5000 t, 5000 t + 5000) of the node matrix, the whole 128 x 128 weight
  and the one bias row, and writes rows [5000 t, 5000 t + 5000) of the output. Block t of the output is block t of
  `outProj` of the three arrays as the region finds them, and the 20 blocks cover the 100000 rows.
-/
import proofs.«145857_j7275674599908_1_alg».proof.Proof.Gen.KernelIdeal.Frame
import proofs.«145857_j7275674599908_1_alg».proof.Proof.KPay
import Idealize.ShloMosaic.Lib.Pipeline.Value

set_option maxRecDepth 16384

noncomputable section

namespace Cert.KernelIdeal.Reg6

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat Cfg Window)
open Cert.Gcn Cert.EdgeGnn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked input and the output move with the point, the weight and
    the bias stay. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

theorem t_lt (t : Fin cfg6.N) : t.val < 20 := Nat.lt_of_lt_of_eq t.isLt N_6

/-- Row p of point t's block is row 5000 t + p of the array. -/
def row (t : Fin cfg6.N) (p : Fin 5000) : Fin 100000 := ⟨t.val * 5000 + p.val, by have := t_lt t; have := p.isLt; omega⟩

theorem emb0 (t : Fin cfg6.N) (p : Fin 5000) (k : Fin 128) :
    ((cfg6.win 0).blk t).view.emb (ix2 p k) = ix2 (row t p) k := by
  obtain ⟨e0, e1, -⟩ := idx_facts t
  funext a; apply Fin.ext
  match a with
  | ⟨0, _⟩ => show win6_0.index t (0 : Fin 2) * 5000 + 1 * p.val = t.val * 5000 + p.val; omega
  | ⟨1, _⟩ => show win6_0.index t (1 : Fin 2) * 128 + 1 * k.val = k.val; omega

theorem emb1 (t : Fin cfg6.N) (k : Fin 128) (q : Fin 128) :
    ((cfg6.win 1).blk t).view.emb (ix2 k q) = ix2 k q := by
  obtain ⟨-, -, e0, e1, -⟩ := idx_facts t
  funext a; apply Fin.ext
  match a with
  | ⟨0, _⟩ => show win6_1.index t (0 : Fin 2) * 128 + 1 * k.val = k.val; omega
  | ⟨1, _⟩ => show win6_1.index t (1 : Fin 2) * 128 + 1 * q.val = q.val; omega

theorem emb2 (t : Fin cfg6.N) (z : Fin 1) (q : Fin 128) :
    ((cfg6.win 2).blk t).view.emb (ix2 z q) = ix2 z q := by
  obtain ⟨-, -, -, -, e0, e1, -⟩ := idx_facts t
  funext a; apply Fin.ext
  match a with
  | ⟨0, _⟩ => show win6_2.index t (0 : Fin 2) * 1 + 1 * z.val = z.val; omega
  | ⟨1, _⟩ => show win6_2.index t (1 : Fin 2) * 128 + 1 * q.val = q.val; omega

theorem emb3 (t : Fin cfg6.N) (p : Fin 5000) (q : Fin 128) :
    ((cfg6.win 3).blk t).view.emb (ix2 p q) = ix2 (row t p) q := by
  obtain ⟨-, -, -, -, -, -, e0, e1⟩ := idx_facts t
  funext a; apply Fin.ext
  match a with
  | ⟨0, _⟩ => show win6_3.index t (0 : Fin 2) * 5000 + 1 * p.val = t.val * 5000 + p.val; omega
  | ⟨1, _⟩ => show win6_3.index t (1 : Fin 2) * 128 + 1 * q.val = q.val; omega

/-- What the region leaves in its output array, as one function of the three arrays it reads. -/
abbrev G (c : Dev nD) : S100000x128.Idx → EReal :=
  outProj (V c main_v84 : S100000x128.Idx → EReal) (V c main_arg8 : S128x128.Idx → EReal) (rowOf (V c main_v85 : S1x128.Idx → EReal))

/-- What point t writes back is block t of `G`. -/
theorem flushed_eq (c : Dev nD) (t : Fin cfg6.N) :
    (dat6 V c).flushed 3 t = ((cfg6.win 3).blk t).view.read (Elt Ideal) (G V c) := by
  show (cfg6.win 3).cut (grid6.coords t) ((dat6 V c).after 3 t) = _
  rw [after6_3]
  unfold out6_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (pay_proj (iblk6 V c 0 t) (iblk6 V c 1 t) (iblk6 V c 2 t) p q).trans ?_
  show _ = G V c (((cfg6.win 3).blk t).view.emb (ix2 p q))
  rw [emb3 t p q]
  unfold G
  rw [outProj_ix2, outProj_ix2, rowOf_ix1, rowOf_ix1]
  have r2 : iblk6 V c 2 t (ix2 (0 : Fin 1) q) = (V c main_v85 : S1x128.Idx → EReal) (ix2 (0 : Fin 1) q) := by
    show (V c main_v85 : S1x128.Idx → EReal) (((cfg6.win 2).blk t).view.emb (ix2 (0 : Fin 1) q)) = _
    rw [emb2 t 0 q]
  have r0 : ∀ k : Fin 128, iblk6 V c 0 t (ix2 p k) = (V c main_v84 : S100000x128.Idx → EReal) (ix2 (row t p) k) := fun k => by
    show (V c main_v84 : S100000x128.Idx → EReal) (((cfg6.win 0).blk t).view.emb (ix2 p k)) = _
    rw [emb0 t p k]
  have r1 : ∀ k : Fin 128, iblk6 V c 1 t (ix2 k q) = (V c main_arg8 : S128x128.Idx → EReal) (ix2 k q) := fun k => by
    show (V c main_arg8 : S128x128.Idx → EReal) (((cfg6.win 1).blk t).view.emb (ix2 k q)) = _
    rw [emb1 t k q]
  simp only [r0, r1, r2]

/-- An index of the output array is in point t's block iff each coordinate is in the block's range. -/
theorem mem_blk (t : Fin cfg6.N) (i : S100000x128.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole main_v86).slice (win6_3.rect t)).set ↔ _
  rw [View.set_slice_whole, Rect.mem_set_unit]
  exact Iff.rfl

/-- Every row of the output is in the block of the point that is its row number divided by 5000. -/
theorem cover (i : S100000x128.Idx) : ∃ t : Fin cfg6.N, (cfg6.win 3).flush t = true ∧ i ∈ ((cfg6.win 3).blk t).view.set := by
  have hi0 : (i 0).val < 100000 := (i 0).isLt
  have hi1 : (i 1).val < 128 := (i 1).isLt
  let t : Fin cfg6.N := ⟨(i 0).val / 5000, Nat.lt_of_lt_of_eq (by omega : (i 0).val / 5000 < 20) N_6.symm⟩
  obtain ⟨-, -, -, -, -, -, e0, e1⟩ := idx_facts t
  have ht : t.val = (i 0).val / 5000 := rfl
  refine ⟨t, flush6_3 t, ?_⟩
  rw [mem_blk]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 128 ≤ (i 1).val ∧ (i 1).val < win6_3.index t (1 : Fin 2) * 128 + 128; omega

/-- The output array after the region. -/
theorem final (c : Dev nD) : (dat6 V c).arrAt 3 cfg6.N = G V c :=
  (dat6 V c).arrAt_eq_of_cover 3 (G V c) (fun t _ => flushed_eq V c t) cover

end Cert.KernelIdeal.Reg6

end
-- ==== Proof.Chain.lean ====
/-
  The whole network as one function of the ten argument arrays, on extended reals.

  Edges run from `row[e]` to `col[e]`. The in-degree of a node is the number of edges arriving there, raised to at
  least one. A layer gathers the source row of every edge, forms the edge message, sums the messages arriving at
  each node, divides by the degree — here: multiplies by its reciprocal, which for a real number of absolute value
  at least one is the same on every extended real —, and applies the node update. Three layers, the output projection, and the
  per-graph mean of the node features (sums over the nodes of each graph divided by the node counts).
  The gather, the scatter-additions, the index arithmetic and the slicing of the stacked weights are carried as
  the host's own operations and never opened.
-/
import proofs.«145857_j7275674599908_1_alg».proof.Proof.Gen.KernelIdeal
import proofs.«145857_j7275674599908_1_alg».proof.Proof.GnnSpec

noncomputable section

namespace Cert.Chain

open Cert.KernelIdeal Cert.KernelIdeal.Facts₀ Idealize.ShloMosaic Cert.Gcn Cert.EdgeGnn

/-- A float scalar constant spread over a shape. -/
abbrev splat (s : Shape) (h : S_.BroadcastsInDim s (![] : Fin 0 → Fin s.rank)) (w : BitVec 32) : FVec Ideal s .f32 :=
  broadcastInDim s ![] h (constant (F := Ideal) S_ .f32 w)

/-- The edges' source nodes, `edge_index[0]`. -/
def rowI (a1 : IVec S2x600000 32) : IVec S600000 32 :=
  shapeCast _ (extractStridedSlice S1x600000 ![0, 0] a1 slices_S2x600000_S1x600000_0_0) shapeCasts_S1x600000_S600000

/-- The edges' target nodes, `edge_index[1]`. -/
def colI (a1 : IVec S2x600000 32) : IVec S600000 32 :=
  shapeCast _ (extractStridedSlice S1x600000 ![1, 0] a1 slices_S2x600000_S1x600000_1_0) shapeCasts_S1x600000_S600000

/-- The start indices of the row gather: a negative source index wrapped by the number of nodes, as a column. -/
def srcIdx (a1 : IVec S2x600000 32) : IVec S600000x1 32 :=
  broadcastInDim S600000x1 ![0] bcast_S600000_S600000x1_0
    (select (cmpi .slt (rowI a1) (broadcastInDim S600000 ![] bcast_S_S600000 (constantI S_ 32 0#32)))
      (addi (rowI a1) (broadcastInDim S600000 ![] bcast_S_S600000 (constantI S_ 32 100000#32))) (rowI a1))

/-- The scatter indices of the edge sums: the target nodes as a column. -/
def dstIdx (a1 : IVec S2x600000 32) : IVec S600000x1 32 :=
  broadcastInDim S600000x1 ![0] bcast_S600000_S600000x1_0 (colI a1)

/-- The in-degree of every node, at least one. -/
def deg (a1 : IVec S2x600000 32) : FVec Ideal S100000 .f32 :=
  maximumf (Host.scatterAdd scatter_S100000_S600000x1_S600000_n_0_0_1 (splat S100000 bcast_S_S100000 0x00000000#32) (dstIdx a1)
    (splat S600000 bcast_S_S600000 0x3F800000#32)) (splat S100000 bcast_S_S100000 0x3F800000#32)

/-- The reciprocal degree of every node, spread over the feature columns. -/
def invDeg (a1 : IVec S2x600000 32) : FVec Ideal S100000x128 .f32 :=
  broadcastInDim S100000x128 ![0, 1] bcast_S100000x1_S100000x128_0_1
    (broadcastInDim S100000x1 ![0] bcast_S100000_S100000x1_0 (Host.divf (splat S100000 bcast_S_S100000 0x3F800000#32) (deg a1)))

/-- One layer, from its four weight arrays. -/
def layer (we : FVec Ideal S16x128 .f32) (be : FVec Ideal S128 .f32) (wn : FVec Ideal S128x128 .f32) (bn : FVec Ideal S128 .f32)
    (a1 : IVec S2x600000 32) (a2 : FVec Ideal S600000x16 .f32) (x : FVec Ideal S100000x128 .f32) : FVec Ideal S100000x128 .f32 :=
  nodeUpdate (mulf (Host.scatterAdd scatter_S100000x128_S600000x1_S600000x128_1_0_0_1 (splat S100000x128 bcast_S_S100000x128 0x00000000#32)
      (dstIdx a1) (edgeCombine (Host.gather gather_S100000x128_S600000x1_S600000x128_1_0_n_n_0_1_1128 x (srcIdx a1)) a2 we be)) (invDeg a1)) wn bn

/-- The node features: three layers and the output projection. -/
def nodeFeat (a0 : FVec Ideal S100000x128 .f32) (a1 : IVec S2x600000 32) (a2 : FVec Ideal S600000x16 .f32)
    (a4 : FVec Ideal S3x128x128 .f32) (a5 : FVec Ideal S3x128 .f32) (a6 : FVec Ideal S3x16x128 .f32) (a7 : FVec Ideal S3x128 .f32)
    (a8 : FVec Ideal S128x128 .f32) (a9 : FVec Ideal S128 .f32) : FVec Ideal S100000x128 .f32 :=
  outProj
    (layer (shapeCast _ (extractStridedSlice S1x16x128 ![2, 0, 0] a6 slices_S3x16x128_S1x16x128_2_0_0) shapeCasts_S1x16x128_S16x128) (shapeCast _ (extractStridedSlice S1x128 ![2, 0] a7 slices_S3x128_S1x128_2_0) shapeCasts_S1x128_S128) (shapeCast _ (extractStridedSlice S1x128x128 ![2, 0, 0] a4 slices_S3x128x128_S1x128x128_2_0_0) shapeCasts_S1x128x128_S128x128) (shapeCast _ (extractStridedSlice S1x128 ![2, 0] a5 slices_S3x128_S1x128_2_0) shapeCasts_S1x128_S128) a1 a2
      (layer (shapeCast _ (extractStridedSlice S1x16x128 ![1, 0, 0] a6 slices_S3x16x128_S1x16x128_1_0_0) shapeCasts_S1x16x128_S16x128) (shapeCast _ (extractStridedSlice S1x128 ![1, 0] a7 slices_S3x128_S1x128_1_0) shapeCasts_S1x128_S128) (shapeCast _ (extractStridedSlice S1x128x128 ![1, 0, 0] a4 slices_S3x128x128_S1x128x128_1_0_0) shapeCasts_S1x128x128_S128x128) (shapeCast _ (extractStridedSlice S1x128 ![1, 0] a5 slices_S3x128_S1x128_1_0) shapeCasts_S1x128_S128) a1 a2
        (layer (shapeCast _ (extractStridedSlice S1x16x128 ![0, 0, 0] a6 slices_S3x16x128_S1x16x128_0_0_0) shapeCasts_S1x16x128_S16x128) (shapeCast _ (extractStridedSlice S1x128 ![0, 0] a7 slices_S3x128_S1x128_0_0) shapeCasts_S1x128_S128) (shapeCast _ (extractStridedSlice S1x128x128 ![0, 0, 0] a4 slices_S3x128x128_S1x128x128_0_0_0) shapeCasts_S1x128x128_S128x128) (shapeCast _ (extractStridedSlice S1x128 ![0, 0] a5 slices_S3x128_S1x128_0_0) shapeCasts_S1x128_S128) a1 a2 a0)))
    a8 a9

/-- The per-graph mean of node features `nf`: sums over each graph's nodes, divided by the graph's node count. -/
def graphMean (a3 : IVec S100000 32) (nf : FVec Ideal S100000x128 .f32) : FVec Ideal S64x128 .f32 :=
  Host.divf
    (Host.scatterAdd scatter_S64x128_S100000x1_S100000x128_1_0_0_1 (splat S64x128 bcast_S_S64x128 0x00000000#32)
      (broadcastInDim S100000x1 ![0] bcast_S100000_S100000x1_0 a3) nf)
    (broadcastInDim S64x128 ![0, 1] bcast_S64x1_S64x128_0_1 (broadcastInDim S64x1 ![0] bcast_S64_S64x1_0
      (Host.scatterAdd scatter_S64_S100000x1_S100000_n_0_0_1 (splat S64 bcast_S_S64 0x00000000#32)
        (broadcastInDim S100000x1 ![0] bcast_S100000_S100000x1_0 a3) (splat S100000 bcast_S_S100000 0x3F800000#32))))

end Cert.Chain

end
-- ==== Proof.KWalk.lean ====
/-
  The kernel program's two results as functions of the ten argument arrays.

  The program is eight stretches of host operations with seven kernel regions between them. Reading a buffer after
  the last stretch walks back through the program: a host operation's result is its function of its operands'
  contents, a buffer it does not write keeps its contents; a region's output array holds the region's whole-array
  function of its input arrays, and every other buffer is as the region found it. Walked back to the launch, the node
  features are three layers and the output projection of the arguments, and the graph features their per-graph mean.
-/
import proofs.«145857_j7275674599908_1_alg».proof.Proof.Gen.KernelIdeal.Frame
import proofs.«145857_j7275674599908_1_alg».proof.Proof.KReg0
import proofs.«145857_j7275674599908_1_alg».proof.Proof.KReg1
import proofs.«145857_j7275674599908_1_alg».proof.Proof.KReg2
import proofs.«145857_j7275674599908_1_alg».proof.Proof.KReg3
import proofs.«145857_j7275674599908_1_alg».proof.Proof.KReg4
import proofs.«145857_j7275674599908_1_alg».proof.Proof.KReg5
import proofs.«145857_j7275674599908_1_alg».proof.Proof.KReg6
import proofs.«145857_j7275674599908_1_alg».proof.Proof.Chain
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem
open Idealize.ShloMosaic.Pipeline (Dat Cfg Window)
open Cert.Gcn Cert.EdgeGnn

variable (m : (ℓ : Loc nD τ sig) → Buf (Elt Ideal) ℓ) (ρ : Dev nD → PrngReg) (c : Dev nD)

/-! ## The regions, for the walk -/

/-- Region 0's output array, from the contents at its entry. -/
theorem W2_out : W2 m ρ c (no_index (Proc.devRef .tc main_v25))
    = edgeCombine (W1 m ρ c (Proc.devRef .tc main_v19) : S600000x128.Idx → EReal)
      (W1 m ρ c (Proc.devRef .tc main_arg2) : S600000x16.Idx → EReal)
      (W1 m ρ c (Proc.devRef .tc main_v21) : S16x128.Idx → EReal)
      (rowOf (W1 m ρ c (Proc.devRef .tc main_v24) : S1x128.Idx → EReal)) :=
  (W2_arr m ρ c 4).trans (Reg0.final (V1 m ρ) c)

/-- Region 0 leaves every buffer that is none of its arrays as it found it. -/
theorem W2_keep {b : Ref sig .tc} (hb : ∀ w, Pipeline.arrRef spec0 w ≠ b) :
    W2 m ρ c (no_index (Proc.devRef .tc b)) = W1 m ρ c (Proc.devRef .tc b) :=
  W2_of_ne m ρ c b hb

/-- Region 0 only reads the edge features. -/
theorem W2_arg2 : W2 m ρ c (no_index (Proc.devRef .tc main_arg2)) = W1 m ρ c (Proc.devRef .tc main_arg2) :=
  (W2_arr m ρ c 1).trans (((dat0 (V1 m ρ) c).arrAt_in 1 rfl _).trans (A_eq0 (V1 m ρ) c 1))

/-- Region 1's output array, from the contents at its entry. -/
theorem W4_out : W4 m ρ c (no_index (Proc.devRef .tc main_v36))
    = nodeUpdate (W3 m ρ c (Proc.devRef .tc main_v30) : S100000x128.Idx → EReal)
      (W3 m ρ c (Proc.devRef .tc main_v32) : S128x128.Idx → EReal)
      (rowOf (W3 m ρ c (Proc.devRef .tc main_v35) : S1x128.Idx → EReal)) :=
  (W4_arr m ρ c 3).trans (Reg1.final (V3 m ρ) c)

/-- Region 1 leaves every buffer that is none of its arrays as it found it. -/
theorem W4_keep {b : Ref sig .tc} (hb : ∀ w, Pipeline.arrRef spec1 w ≠ b) :
    W4 m ρ c (no_index (Proc.devRef .tc b)) = W3 m ρ c (Proc.devRef .tc b) :=
  W4_of_ne m ρ c b hb

/-- Region 2's output array, from the contents at its entry. -/
theorem W6_out : W6 m ρ c (no_index (Proc.devRef .tc main_v49))
    = edgeCombine (W5 m ρ c (Proc.devRef .tc main_v43) : S600000x128.Idx → EReal)
      (W5 m ρ c (Proc.devRef .tc main_arg2) : S600000x16.Idx → EReal)
      (W5 m ρ c (Proc.devRef .tc main_v45) : S16x128.Idx → EReal)
      (rowOf (W5 m ρ c (Proc.devRef .tc main_v48) : S1x128.Idx → EReal)) :=
  (W6_arr m ρ c 4).trans (Reg2.final (V5 m ρ) c)

/-- Region 2 leaves every buffer that is none of its arrays as it found it. -/
theorem W6_keep {b : Ref sig .tc} (hb : ∀ w, Pipeline.arrRef spec2 w ≠ b) :
    W6 m ρ c (no_index (Proc.devRef .tc b)) = W5 m ρ c (Proc.devRef .tc b) :=
  W6_of_ne m ρ c b hb

/-- Region 2 only reads the edge features. -/
theorem W6_arg2 : W6 m ρ c (no_index (Proc.devRef .tc main_arg2)) = W5 m ρ c (Proc.devRef .tc main_arg2) :=
  (W6_arr m ρ c 1).trans (((dat2 (V5 m ρ) c).arrAt_in 1 rfl _).trans (A_eq2 (V5 m ρ) c 1))

/-- Region 3's output array, from the contents at its entry. -/
theorem W8_out : W8 m ρ c (no_index (Proc.devRef .tc main_v60))
    = nodeUpdate (W7 m ρ c (Proc.devRef .tc main_v54) : S100000x128.Idx → EReal)
      (W7 m ρ c (Proc.devRef .tc main_v56) : S128x128.Idx → EReal)
      (rowOf (W7 m ρ c (Proc.devRef .tc main_v59) : S1x128.Idx → EReal)) :=
  (W8_arr m ρ c 3).trans (Reg3.final (V7 m ρ) c)

/-- Region 3 leaves every buffer that is none of its arrays as it found it. -/
theorem W8_keep {b : Ref sig .tc} (hb : ∀ w, Pipeline.arrRef spec3 w ≠ b) :
    W8 m ρ c (no_index (Proc.devRef .tc b)) = W7 m ρ c (Proc.devRef .tc b) :=
  W8_of_ne m ρ c b hb

/-- Region 4's output array, from the contents at its entry. -/
theorem W10_out : W10 m ρ c (no_index (Proc.devRef .tc main_v73))
    = edgeCombine (W9 m ρ c (Proc.devRef .tc main_v67) : S600000x128.Idx → EReal)
      (W9 m ρ c (Proc.devRef .tc main_arg2) : S600000x16.Idx → EReal)
      (W9 m ρ c (Proc.devRef .tc main_v69) : S16x128.Idx → EReal)
      (rowOf (W9 m ρ c (Proc.devRef .tc main_v72) : S1x128.Idx → EReal)) :=
  (W10_arr m ρ c 4).trans (Reg4.final (V9 m ρ) c)

/-- Region 4 leaves every buffer that is none of its arrays as it found it. -/
theorem W10_keep {b : Ref sig .tc} (hb : ∀ w, Pipeline.arrRef spec4 w ≠ b) :
    W10 m ρ c (no_index (Proc.devRef .tc b)) = W9 m ρ c (Proc.devRef .tc b) :=
  W10_of_ne m ρ c b hb

/-- Region 4 only reads the edge features. -/
theorem W10_arg2 : W10 m ρ c (no_index (Proc.devRef .tc main_arg2)) = W9 m ρ c (Proc.devRef .tc main_arg2) :=
  (W10_arr m ρ c 1).trans (((dat4 (V9 m ρ) c).arrAt_in 1 rfl _).trans (A_eq4 (V9 m ρ) c 1))

/-- Region 5's output array, from the contents at its entry. -/
theorem W12_out : W12 m ρ c (no_index (Proc.devRef .tc main_v84))
    = nodeUpdate (W11 m ρ c (Proc.devRef .tc main_v78) : S100000x128.Idx → EReal)
      (W11 m ρ c (Proc.devRef .tc main_v80) : S128x128.Idx → EReal)
      (rowOf (W11 m ρ c (Proc.devRef .tc main_v83) : S1x128.Idx → EReal)) :=
  (W12_arr m ρ c 3).trans (Reg5.final (V11 m ρ) c)

/-- Region 5 leaves every buffer that is none of its arrays as it found it. -/
theorem W12_keep {b : Ref sig .tc} (hb : ∀ w, Pipeline.arrRef spec5 w ≠ b) :
    W12 m ρ c (no_index (Proc.devRef .tc b)) = W11 m ρ c (Proc.devRef .tc b) :=
  W12_of_ne m ρ c b hb

/-- Region 6's output array, from the contents at its entry. -/
theorem W14_out : W14 m ρ c (no_index (Proc.devRef .tc main_v86))
    = outProj (W13 m ρ c (Proc.devRef .tc main_v84) : S100000x128.Idx → EReal)
      (W13 m ρ c (Proc.devRef .tc main_arg8) : S128x128.Idx → EReal)
      (rowOf (W13 m ρ c (Proc.devRef .tc main_v85) : S1x128.Idx → EReal)) :=
  (W14_arr m ρ c 3).trans (Reg6.final (V13 m ρ) c)

/-- Region 6 leaves every buffer that is none of its arrays as it found it. -/
theorem W14_keep {b : Ref sig .tc} (hb : ∀ w, Pipeline.arrRef spec6 w ≠ b) :
    W14 m ρ c (no_index (Proc.devRef .tc b)) = W13 m ρ c (Proc.devRef .tc b) :=
  W14_of_ne m ρ c b hb

/-! ## The kernel's spelling of the biases -/

/-- A bias vector laid out as one row and read back as the vector of that row: the vector. -/
abbrev viaRow (b : FVec Ideal S128 .f32) : FVec Ideal S128 .f32 := rowOf (shapeCast S1x128 b shapeCasts_S128_S1x128)

theorem viaRow_eq (b : FVec Ideal S128 .f32) : viaRow b = b := rowOf_shapeCast b _

/-- The node features with every bias passed through its one-row layout, as the kernel program passes them. -/
def nodeFeatK (a0 : FVec Ideal S100000x128 .f32) (a1 : IVec S2x600000 32) (a2 : FVec Ideal S600000x16 .f32)
    (a4 : FVec Ideal S3x128x128 .f32) (a5 : FVec Ideal S3x128 .f32) (a6 : FVec Ideal S3x16x128 .f32) (a7 : FVec Ideal S3x128 .f32)
    (a8 : FVec Ideal S128x128 .f32) (a9 : FVec Ideal S128 .f32) : FVec Ideal S100000x128 .f32 :=
  outProj
    (Chain.layer (shapeCast _ (extractStridedSlice S1x16x128 ![2, 0, 0] a6 slices_S3x16x128_S1x16x128_2_0_0) shapeCasts_S1x16x128_S16x128) (viaRow (shapeCast _ (extractStridedSlice S1x128 ![2, 0] a7 slices_S3x128_S1x128_2_0) shapeCasts_S1x128_S128)) (shapeCast _ (extractStridedSlice S1x128x128 ![2, 0, 0] a4 slices_S3x128x128_S1x128x128_2_0_0) shapeCasts_S1x128x128_S128x128) (viaRow (shapeCast _ (extractStridedSlice S1x128 ![2, 0] a5 slices_S3x128_S1x128_2_0) shapeCasts_S1x128_S128)) a1 a2
      (Chain.layer (shapeCast _ (extractStridedSlice S1x16x128 ![1, 0, 0] a6 slices_S3x16x128_S1x16x128_1_0_0) shapeCasts_S1x16x128_S16x128) (viaRow (shapeCast _ (extractStridedSlice S1x128 ![1, 0] a7 slices_S3x128_S1x128_1_0) shapeCasts_S1x128_S128)) (shapeCast _ (extractStridedSlice S1x128x128 ![1, 0, 0] a4 slices_S3x128x128_S1x128x128_1_0_0) shapeCasts_S1x128x128_S128x128) (viaRow (shapeCast _ (extractStridedSlice S1x128 ![1, 0] a5 slices_S3x128_S1x128_1_0) shapeCasts_S1x128_S128)) a1 a2
      (Chain.layer (shapeCast _ (extractStridedSlice S1x16x128 ![0, 0, 0] a6 slices_S3x16x128_S1x16x128_0_0_0) shapeCasts_S1x16x128_S16x128) (viaRow (shapeCast _ (extractStridedSlice S1x128 ![0, 0] a7 slices_S3x128_S1x128_0_0) shapeCasts_S1x128_S128)) (shapeCast _ (extractStridedSlice S1x128x128 ![0, 0, 0] a4 slices_S3x128x128_S1x128x128_0_0_0) shapeCasts_S1x128x128_S128x128) (viaRow (shapeCast _ (extractStridedSlice S1x128 ![0, 0] a5 slices_S3x128_S1x128_0_0) shapeCasts_S1x128_S128)) a1 a2
      a0)))
    a8 (viaRow a9)

theorem nodeFeatK_eq (a0 : FVec Ideal S100000x128 .f32) (a1 : IVec S2x600000 32) (a2 : FVec Ideal S600000x16 .f32)
    (a4 : FVec Ideal S3x128x128 .f32) (a5 : FVec Ideal S3x128 .f32) (a6 : FVec Ideal S3x16x128 .f32) (a7 : FVec Ideal S3x128 .f32)
    (a8 : FVec Ideal S128x128 .f32) (a9 : FVec Ideal S128 .f32) :
    nodeFeatK a0 a1 a2 a4 a5 a6 a7 a8 a9 = Chain.nodeFeat a0 a1 a2 a4 a5 a6 a7 a8 a9 := by
  unfold nodeFeatK Chain.nodeFeat
  simp only [viaRow_eq]

/-! ## The two results -/

set_option maxHeartbeats 4000000 in
/-- The node features, in the kernel's spelling. -/
theorem nodeFeatK_walk : W15 m ρ c (Proc.devRef .tc main_v86)
    = nodeFeatK (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  simp (disch := decide) only [W15, W13, W11, W9, W7, W5, W3, W1, hostOps0, hostOps1, hostOps2, hostOps3, hostOps4, hostOps5, hostOps6, hostOps7,
    StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    W2_out, W2_keep, W2_arg2, W4_out, W4_keep, W6_out, W6_keep, W6_arg2, W8_out, W8_keep, W10_out, W10_keep, W10_arg2, W12_out, W12_keep, W14_out, W14_keep]
  unfold nodeFeatK viaRow Chain.layer Chain.invDeg Chain.deg Chain.srcIdx Chain.dstIdx Chain.rowI Chain.colI Chain.splat
  rfl

/-- The node features. -/
theorem nodeFeat_eq : W15 m ρ c (Proc.devRef .tc main_v86)
    = Chain.nodeFeat (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (nodeFeatK_walk m ρ c).trans (nodeFeatK_eq _ _ _ _ _ _ _ _ _)

/-- The last stretch of host operations does not write the node features. -/
theorem last_keeps_nodeFeat : W15 m ρ c (Proc.devRef .tc main_v86) = W14 m ρ c (Proc.devRef .tc main_v86) := by
  simp (disch := decide) only [W15, hostOps7, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne']

set_option maxHeartbeats 4000000 in
/-- Nothing before the last stretch writes the graph ids. -/
theorem graphIds_kept : W14 m ρ c (Proc.devRef .tc main_arg3) = m ((c : Thread nD τ).loc main_arg3) := by
  simp (disch := decide) only [W15, W13, W11, W9, W7, W5, W3, W1, hostOps0, hostOps1, hostOps2, hostOps3, hostOps4, hostOps5, hostOps6, hostOps7,
    StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne',
    W2_out, W2_keep, W2_arg2, W4_out, W4_keep, W6_out, W6_keep, W6_arg2, W8_out, W8_keep, W10_out, W10_keep, W10_arg2, W12_out, W12_keep, W14_out, W14_keep]

/-- The last stretch: the per-graph mean of the node features it finds. -/
theorem graphMean_last : W15 m ρ c (Proc.devRef .tc main_v96)
    = Chain.graphMean (W14 m ρ c (Proc.devRef .tc main_arg3) : IVec S100000 32)
        (W14 m ρ c (Proc.devRef .tc main_v86) : S100000x128.Idx → EReal) := by
  simp (disch := decide) only [W15, hostOps7, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne', StableHlo.reshape_result_ne']
  unfold Chain.graphMean Chain.splat
  rfl

/-- The graph features. -/
theorem graphFeat_eq : W15 m ρ c (Proc.devRef .tc main_v96)
    = Chain.graphMean (m ((c : Thread nD τ).loc main_arg3)) (Chain.nodeFeat (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [graphMean_last, graphIds_kept, ← last_keeps_nodeFeat, nodeFeat_eq]

end Cert.KernelIdeal.Walk

end
-- ==== Proof.LibDenseOps.lean ====
/-
  The small operations of a dense stage, read at an entry, at the ideal values.

  A bias vector `b` of length `K` is added to every row of an `R × K` matrix and the rectifier applied. A kernel spells the
  row broadcast `[K] → [1, K] → [R, K]` with a shape cast and a vector broadcast and the rectifier's zero as a scalar
  splat; the host spells the broadcast with two `broadcast_in_dim`s and the zero as a broadcast constant. Either way the
  entry at `(r, k)` is `max (A[r,k] + b[k]) 0`, the `0` being the all-zero word. The same for the one-entry bias of the
  last stage. The logistic function `σ t = 1 / (1 + e⁻ᵗ)`, spelt by the host with the word `0x3F800000` for `1`, is the
  function the kernel's single operation denotes.
-/
import proofs.«145857_j7275674599908_1_alg».proof.Proof.LibDenseSpec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn

open Idealize.ShloMosaic Idealize.ShloMosaic.ValueIdx

variable {R K : ℕ}

/-- A kernel's `relu (A + b)` at entry `(p, k)`. -/
theorem biasRelu_vector (x0 : FVec Ideal ⟨2, ![R, K]⟩ .f32) (x1 : FVec Ideal ⟨1, ![K]⟩ .f32)
    (h1 : (⟨2, ![R, K]⟩ : Shape).ShapeCasts ⟨2, ![R, K]⟩) (h2 : (⟨1, ![K]⟩ : Shape).ShapeCasts ⟨2, ![1, K]⟩)
    (h3 : (⟨2, ![1, K]⟩ : Shape).Broadcasts ⟨2, ![R, K]⟩) (p : Fin R) (k : Fin K) :
    maximumf (addf (shapeCast ⟨2, ![R, K]⟩ x0 h1) (broadcastTo ⟨2, ![R, K]⟩ (shapeCast ⟨2, ![1, K]⟩ x1 h2) h3))
        (broadcast ⟨2, ![R, K]⟩ (Scalar.ofBits (F := Ideal) .f32 0x00000000#32)) (ix2 p k)
      = biasRelu x0 x1 (ix2 p k) := by
  rw [biasRelu_ix2, maximumf_apply, addf_apply, broadcast_apply, shapeCast_self, broadcastTo_1b_ab_apply, shapeCast_a_1a_apply]
  rfl

/-- A length-`K` vector broadcast over the rows of an `R × K` matrix by two `broadcast_in_dim`s, at entry `(r, k)`. -/
theorem rowBroadcast_host {α : Type} (b : (⟨1, ![K]⟩ : Shape).Idx → α)
    (h1 : (⟨1, ![K]⟩ : Shape).BroadcastsInDim ⟨2, ![1, K]⟩ (![1] : Fin 1 → Fin 2))
    (h2 : (⟨2, ![1, K]⟩ : Shape).BroadcastsInDim ⟨2, ![R, K]⟩ (![0, 1] : Fin 2 → Fin 2)) (r : Fin R) (k : Fin K) :
    broadcastInDim ⟨2, ![R, K]⟩ (![0, 1] : Fin 2 → Fin 2) h2 (broadcastInDim ⟨2, ![1, K]⟩ (![1] : Fin 1 → Fin 2) h1 b) (ix2 r k) = b (ix1 k) := by
  rw [broadcastInDim_apply (![0, 1] : Fin 2 → Fin 2) h2 _ (ix2 r k) (ix2 (0 : Fin 1) k) (fun a => by
    match a with
    | ⟨0, _⟩ => rfl
    | ⟨1, _⟩ =>
      show k.val = if K = 1 then 0 else k.val
      split
      · have := k.isLt; omega
      · rfl)]
  exact broadcastInDim_apply (![1] : Fin 1 → Fin 2) h1 b (ix2 (0 : Fin 1) k) (ix1 k) (fun a => by
    match a with
    | ⟨0, _⟩ =>
      show k.val = if K = 1 then 0 else k.val
      split
      · have := k.isLt; omega
      · rfl)

/-- The host's `relu (A + b)` at entry `(r, k)`. -/
theorem biasRelu_host (a : FVec Ideal ⟨2, ![R, K]⟩ .f32) (b : FVec Ideal ⟨1, ![K]⟩ .f32)
    (h1 : (⟨1, ![K]⟩ : Shape).BroadcastsInDim ⟨2, ![1, K]⟩ (![1] : Fin 1 → Fin 2))
    (h2 : (⟨2, ![1, K]⟩ : Shape).BroadcastsInDim ⟨2, ![R, K]⟩ (![0, 1] : Fin 2 → Fin 2))
    (h3 : (⟨0, ![]⟩ : Shape).BroadcastsInDim ⟨2, ![R, K]⟩ (![] : Fin 0 → Fin 2)) (r : Fin R) (k : Fin K) :
    maximumf (addf a (broadcastInDim ⟨2, ![R, K]⟩ (![0, 1] : Fin 2 → Fin 2) h2 (broadcastInDim ⟨2, ![1, K]⟩ (![1] : Fin 1 → Fin 2) h1 b)))
        (broadcastInDim ⟨2, ![R, K]⟩ (![] : Fin 0 → Fin 2) h3 (constant (F := Ideal) ⟨0, ![]⟩ .f32 0x00000000#32)) (ix2 r k)
      = biasRelu a b (ix2 r k) := by
  rw [biasRelu_ix2, maximumf_apply, addf_apply, rowBroadcast_host b h1 h2 r k,
    broadcastInDim_apply (![] : Fin 0 → Fin 2) h3 _ (ix2 r k) ix0 (fun a => a.elim0)]
  rfl

/-- A constant broadcast to an `R × K` matrix by the host, at any entry: the constant's word. -/
theorem splat_host (h3 : (⟨0, ![]⟩ : Shape).BroadcastsInDim ⟨2, ![R, K]⟩ (![] : Fin 0 → Fin 2)) (w : BitVec 32) (i : (⟨2, ![R, K]⟩ : Shape).Idx) :
    broadcastInDim ⟨2, ![R, K]⟩ (![] : Fin 0 → Fin 2) h3 (constant (F := Ideal) ⟨0, ![]⟩ .f32 w) i = Ideal.ofBits .f32 w := by
  rw [broadcastInDim_apply (![] : Fin 0 → Fin 2) h3 _ i ix0 (fun a => a.elim0)]
  rfl

/-- The word `0x3F800000` is the number one. -/
theorem one_word : Ideal.ofBits .f32 0x3F800000#32 = 1 := by
  simp [Ideal.ofBits, Ideal.ieee, -EReal.coe_mul]; norm_num

/-- The logistic function spelt `1 / (1 + e⁻ᵗ)` with the word for one. -/
theorem logistic_spelt (t : EReal) :
    Ideal.div (Ideal.ofBits .f32 0x3F800000#32) (Ideal.ofBits .f32 0x3F800000#32 + Ideal.exp (-t)) = Ideal.logistic t := by
  rw [one_word]; rfl

/-- The host's `1 / (1 + e^(-z))` at an entry where both of its ones are the word for one: the logistic function of `z`'s
    entry. -/
theorem logistic_host {S : Shape} (one₁ one₂ z : FVec Ideal S .f32) (i : S.Idx)
    (h1 : one₁ i = Ideal.ofBits .f32 0x3F800000#32) (h2 : one₂ i = Ideal.ofBits .f32 0x3F800000#32) :
    Host.divf one₁ (addf one₂ (Host.exp (Host.negf z))) i = Ideal.logistic (z i) := by
  show Ideal.div (one₁ i) (one₂ i + Ideal.exp (-(z i))) = _
  rw [h1, h2, logistic_spelt]

end Cert.Gcn

end
-- ==== Proof.LibVecGather.lean ====
/-
Gather of a vector at an integer vector, read at an index; and a scatter-add of real numbers is a real number.

`x[idx]` of a vector `x : [N]` at an integer vector `idx : [E]` is a `stablehlo.gather` with offset_dims `[]`,
collapsed_slice_dims `[0]`, start_index_map `[0]`, index_vector_dim 1 and slice_sizes `[1]` over the indices as
`[E, 1]`, with result `[E]`. Result element `e` is `x` at the start index `idx[e, 0]`, read as a signed integer and
clamped into `[0, N − 1]`.

An accumulating scatter at the extended reals gives, at each operand index, the operand element plus a finite sum of
update elements. When the operand element and every update element are real numbers (neither `+∞` nor `−∞`), so is
the result: a finite sum of real numbers is a real number.
-/
import Idealize.ShloMosaic.Lib.ValueIdx
import Idealize.ShloMosaic.PureOps.Ideal

noncomputable section

open scoped BigOperators

namespace Cert.LibVecGather

open Idealize.ShloMosaic Idealize.ShloMosaic.ValueIdx

/-! ## Vector gather -/

section Gather
variable {α : Type}

/-- The dimension numbers of a gather of single elements for an operand `[N]`, start indices `[E, 1]` and result
    `[E]`: the one operand axis is collapsed and indexed, there is no offset axis, a slice is one element. Their
    conditions `wf` are a parameter, so that any record with these fields is an instance whatever its proof. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the start index `idx[e, 0]`, read signed and clamped into
    `[0, N − 1]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  -- the one operand axis: collapsed, so no offset; not a batching axis; its start is the clamped index
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## A scatter-add of real numbers is a real number -/

section Scatter

/-- A finite sum of extended reals each of which is a real number is a real number. -/
theorem sum_real {ι : Type*} (t : Finset ι) (f : ι → EReal) (hf : ∀ j ∈ t, ∃ r : ℝ, f j = ((r : ℝ) : EReal)) :
    ∃ r : ℝ, ∑ j ∈ t, f j = ((r : ℝ) : EReal) := by
  classical
  induction t using Finset.induction_on with
  | empty => exact ⟨0, by simp⟩
  | insert a t ha ih =>
    obtain ⟨ra, hra⟩ := hf a (Finset.mem_insert_self a t)
    obtain ⟨rt, hrt⟩ := ih fun j hj => hf j (Finset.mem_insert_of_mem hj)
    refine ⟨ra + rt, ?_⟩
    rw [Finset.sum_insert ha, hra, hrt, EReal.coe_add]

/-- THE ACCUMULATING SCATTER KEEPS REAL NUMBERS REAL: for any dimension numbers, at an operand index whose element is
    a real number, and with every update element a real number, the result element is a real number. -/
theorem hostScatterAdd_real {s si su : Shape} (D : ScatterDims s si su) {w : Nat} (x : s.Idx → EReal) (idx : IVec si w)
    (upd : su.Idx → EReal) (i : s.Idx) (hx : ∃ r : ℝ, x i = ((r : ℝ) : EReal))
    (hupd : ∀ j, ∃ r : ℝ, upd j = ((r : ℝ) : EReal)) :
    ∃ r : ℝ, Ideal.hostScatterAdd D x idx upd i = ((r : ℝ) : EReal) := by
  unfold Ideal.hostScatterAdd
  obtain ⟨rx, hrx⟩ := hx
  obtain ⟨rs, hrs⟩ := sum_real (Finset.univ.filter (fun j => D.resultIdx? j idx = some i)) upd (fun j _ => hupd j)
  exact ⟨rx + rs, by rw [hrx, hrs, EReal.coe_add]⟩

end Scatter

end Cert.LibVecGather

end
-- ==== Proof.RefSideA.lean ====
/-
  The dense stages of the reference's message-passing layer, read at an entry, on extended reals.

  The message `x + (l + b)` of an edge is `(x + l) + b`: addition of extended reals is associative. A linear map, a bias
  row and the rectifier read at an entry are the node update's entry; the output projection likewise. The in-degree
  raised to at least one is at every node a real number `r ≥ 1` (a sum of ones into zero, then a maximum with one), and
  division by a nonzero real number is multiplication by its reciprocal on every extended real, the infinities included;
  so dividing every row by the degree is multiplying it by the reciprocal degree.
-/
import proofs.«145857_j7275674599908_1_alg».proof.Proof.Gen.ReferenceIdeal.Run
import proofs.«145857_j7275674599908_1_alg».proof.Proof.Gen.ReferenceIdeal.Read
import proofs.«145857_j7275674599908_1_alg».proof.Proof.Chain
import proofs.«145857_j7275674599908_1_alg».proof.Proof.GnnSpec
import proofs.«145857_j7275674599908_1_alg».proof.Proof.LibDenseOps
import proofs.«145857_j7275674599908_1_alg».proof.Proof.LibMatmulSum
import proofs.«145857_j7275674599908_1_alg».proof.Proof.LibVecGather

noncomputable section

namespace Cert.ReferenceIdeal.RefSide

open Cert.ReferenceIdeal Cert.ReferenceIdeal.Gen Idealize.ShloMosaic Idealize.ShloMosaic.ValueIdx Idealize.ShloMosaic.TcCoe
  Idealize.SL.Sem Cert.Gcn Cert.EdgeGnn

/-! ## Reading the small operations at an entry -/

/-- A scalar constant spread over a vector reads the constant's word at every index. -/
theorem splat1_apply {N : ℕ} (h : (⟨0, ![]⟩ : Shape).BroadcastsInDim ⟨1, ![N]⟩ (![] : Fin 0 → Fin 1)) (w : BitVec 32)
    (i : (⟨1, ![N]⟩ : Shape).Idx) :
    broadcastInDim ⟨1, ![N]⟩ (![] : Fin 0 → Fin 1) h (constant (F := Ideal) ⟨0, ![]⟩ .f32 w) i = Ideal.ofBits .f32 w := by
  rw [broadcastInDim_apply (![] : Fin 0 → Fin 1) h _ i ix0 (fun a => a.elim0)]
  rfl

/-- A length-`N` vector spread over the columns of an `N × K` matrix through an `N × 1` column, at entry `(n, k)`:
    the vector at `n`. -/
theorem colBroadcast_host {α : Type} {N K : ℕ} (d : (⟨1, ![N]⟩ : Shape).Idx → α)
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2)) (n : Fin N) (k : Fin K) :
    broadcastInDim ⟨2, ![N, K]⟩ (![0, 1] : Fin 2 → Fin 2) h2 (broadcastInDim ⟨2, ![N, 1]⟩ (![0] : Fin 1 → Fin 2) h1 d) (ix2 n k)
      = d (ix1 n) := by
  rw [broadcastInDim_apply (![0, 1] : Fin 2 → Fin 2) h2 _ (ix2 n k) (ix2 n (0 : Fin 1)) (fun a => by
    match a with
    | ⟨0, _⟩ =>
      show n.val = if N = 1 then 0 else n.val
      split
      · have := n.isLt; omega
      · rfl
    | ⟨1, _⟩ => rfl)]
  exact broadcastInDim_apply (![0] : Fin 1 → Fin 2) h1 d (ix2 n (0 : Fin 1)) (ix1 n) (fun a => by
    match a with
    | ⟨0, _⟩ =>
      show n.val = if N = 1 then 0 else n.val
      split
      · have := n.isLt; omega
      · rfl)

/-- The host's quotient at an index is the quotient of the elements. -/
theorem hostDivf_apply {s : Shape} (a b : FVec Ideal s .f32) (i : s.Idx) : Host.divf a b i = Ideal.div (a i) (b i) := rfl

/-! ## The degree is a real number at least one, and dividing by it is multiplying by its reciprocal -/

/-- A scatter-addition of ones into zeros, raised to at least one, is at every index a real number `r ≥ 1`. -/
theorem deg_real {N E : ℕ} {si : Shape} {w : ℕ} (D : ScatterDims ⟨1, ![N]⟩ si ⟨1, ![E]⟩) (idx : IVec si w)
    (h0 h2 : (⟨0, ![]⟩ : Shape).BroadcastsInDim ⟨1, ![N]⟩ (![] : Fin 0 → Fin 1))
    (h1 : (⟨0, ![]⟩ : Shape).BroadcastsInDim ⟨1, ![E]⟩ (![] : Fin 0 → Fin 1)) (i : (⟨1, ![N]⟩ : Shape).Idx) :
    ∃ r : ℝ, 1 ≤ r ∧
      maximumf (Host.scatterAdd D (broadcastInDim ⟨1, ![N]⟩ (![] : Fin 0 → Fin 1) h0 (constant (F := Ideal) ⟨0, ![]⟩ .f32 0x00000000#32)) idx
          (broadcastInDim ⟨1, ![E]⟩ (![] : Fin 0 → Fin 1) h1 (constant (F := Ideal) ⟨0, ![]⟩ .f32 0x3F800000#32)))
        (broadcastInDim ⟨1, ![N]⟩ (![] : Fin 0 → Fin 1) h2 (constant (F := Ideal) ⟨0, ![]⟩ .f32 0x3F800000#32)) i = ((r : ℝ) : EReal) := by
  obtain ⟨r, hr⟩ := Cert.LibVecGather.hostScatterAdd_real D
    (broadcastInDim ⟨1, ![N]⟩ (![] : Fin 0 → Fin 1) h0 (constant (F := Ideal) ⟨0, ![]⟩ .f32 0x00000000#32)) idx
    (broadcastInDim ⟨1, ![E]⟩ (![] : Fin 0 → Fin 1) h1 (constant (F := Ideal) ⟨0, ![]⟩ .f32 0x3F800000#32)) i
    ⟨0, by rw [splat1_apply, Ideal.ofBits_zero_f32]; rfl⟩ (fun j => ⟨1, by rw [splat1_apply, one_word]; rfl⟩)
  refine ⟨max r 1, le_max_right _ _, ?_⟩
  rw [maximumf_apply, splat1_apply, one_word]
  show max (Ideal.hostScatterAdd D _ idx _ i) 1 = _
  rw [hr]
  exact (EReal.coe_strictMono.monotone.map_max).symm

/-- Dividing every row of a matrix by a vector of real numbers `≥ 1` is multiplying it by the vector's reciprocals. -/
theorem div_recip {N K : ℕ} (agg : FVec Ideal ⟨2, ![N, K]⟩ .f32) (d ones : FVec Ideal ⟨1, ![N]⟩ .f32)
    (hd : ∀ i, ∃ r : ℝ, 1 ≤ r ∧ d i = ((r : ℝ) : EReal)) (hone : ∀ i, ones i = 1)
    (h1 h1' : (⟨1, ![N]⟩ : Shape).BroadcastsInDim ⟨2, ![N, 1]⟩ (![0] : Fin 1 → Fin 2))
    (h2 h2' : (⟨2, ![N, 1]⟩ : Shape).BroadcastsInDim ⟨2, ![N, K]⟩ (![0, 1] : Fin 2 → Fin 2)) :
    Host.divf agg (broadcastInDim ⟨2, ![N, K]⟩ (![0, 1] : Fin 2 → Fin 2) h2 (broadcastInDim ⟨2, ![N, 1]⟩ (![0] : Fin 1 → Fin 2) h1 d))
      = mulf agg (broadcastInDim ⟨2, ![N, K]⟩ (![0, 1] : Fin 2 → Fin 2) h2'
          (broadcastInDim ⟨2, ![N, 1]⟩ (![0] : Fin 1 → Fin 2) h1' (Host.divf ones d))) := by
  funext i
  obtain ⟨n, k, rfl⟩ : ∃ (n : Fin N) (k : Fin K), i = ix2 n k := ⟨i 0, i 1, eq_ix2 i⟩
  rw [hostDivf_apply, mulf_apply, colBroadcast_host d h1 h2 n k, colBroadcast_host _ h1' h2' n k, hostDivf_apply, hone]
  obtain ⟨r, hr1, hr⟩ := hd (ix1 n)
  have hr0 : r ≠ 0 := by intro h; rw [h] at hr1; norm_num at hr1
  rw [hr, Ideal.div_coe hr0, Ideal.div_coe hr0, one_mul]

/-! ## The dense stages -/

/-- The message of every edge: `x + (l + b) = (x + l) + b`. -/
theorem msg_eq (xg : FVec Ideal S600000x128 .f32) (ea : FVec Ideal S600000x16 .f32) (we : FVec Ideal S16x128 .f32)
    (be : FVec Ideal S128 .f32) :
    addf xg (addf (Host.dotGeneral dot_S600000x16_S16x128_S600000x128_1_0_0_1_n_n none ea we)
        (broadcastInDim S600000x128 ![0, 1] bcast_S1x128_S600000x128_0_1 (broadcastInDim S1x128 ![1] bcast_S128_S1x128_1 be)))
      = edgeCombine xg ea we be := by
  funext i
  obtain ⟨e, h, rfl⟩ : ∃ (e : Fin 600000) (h : Fin 128), i = ix2 e h := ⟨i 0, i 1, eq_ix2 i⟩
  rw [edgeCombine_ix2, addf_apply, addf_apply, rowBroadcast_host be bcast_S128_S1x128_1 bcast_S1x128_S600000x128_0_1 e h]
  simp only [Host.dotGeneral]
  rw [Cert.GraphConv.dotGeneral_sum dot_S600000x16_S16x128_S600000x128_1_0_0_1_n_n none _ rfl rfl Read.lhs_main_v20_0
    Read.lhs_main_v20_1 Read.rhs_main_v20_0 Read.rhs_main_v20_1, add_assoc]

/-- The node update: linear map, bias row, rectifier. -/
theorem node_eq (a : FVec Ideal S100000x128 .f32) (w : FVec Ideal S128x128 .f32) (b : FVec Ideal S128 .f32) :
    maximumf (addf (Host.dotGeneral dot_S100000x128_S128x128_S100000x128_1_0_0_1_n_n none a w)
        (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32))
      = nodeUpdate a w b := by
  funext i
  obtain ⟨r, n, rfl⟩ : ∃ (r : Fin 100000) (n : Fin 128), i = ix2 r n := ⟨i 0, i 1, eq_ix2 i⟩
  rw [biasRelu_host _ b bcast_S128_S1x128_1 bcast_S1x128_S100000x128_0_1 bcast_S_S100000x128 r n, nodeUpdate_ix2, biasRelu_ix2]
  simp only [Host.dotGeneral]
  rw [Cert.GraphConv.dotGeneral_sum dot_S100000x128_S128x128_S100000x128_1_0_0_1_n_n none _ rfl rfl Read.lhs_main_v34_0
    Read.lhs_main_v34_1 Read.rhs_main_v34_0 Read.rhs_main_v34_1]

/-- The output projection: linear map and bias row. -/
theorem proj_eq (a : FVec Ideal S100000x128 .f32) (w : FVec Ideal S128x128 .f32) (b : FVec Ideal S128 .f32) :
    addf (Host.dotGeneral dot_S100000x128_S128x128_S100000x128_1_0_0_1_n_n none a w)
        (broadcastInDim S100000x128 ![0, 1] bcast_S1x128_S100000x128_0_1 (broadcastInDim S1x128 ![1] bcast_S128_S1x128_1 b))
      = outProj a w b := by
  funext i
  obtain ⟨r, n, rfl⟩ : ∃ (r : Fin 100000) (n : Fin 128), i = ix2 r n := ⟨i 0, i 1, eq_ix2 i⟩
  rw [outProj_ix2, addf_apply, rowBroadcast_host b bcast_S128_S1x128_1 bcast_S1x128_S100000x128_0_1 r n]
  simp only [Host.dotGeneral]
  rw [Cert.GraphConv.dotGeneral_sum dot_S100000x128_S128x128_S100000x128_1_0_0_1_n_n none _ rfl rfl Read.lhs_main_v34_0
    Read.lhs_main_v34_1 Read.rhs_main_v34_0 Read.rhs_main_v34_1]

end Cert.ReferenceIdeal.RefSide

end
-- ==== Proof.RefSide.lean ====
/-
  The reference network read as the chain of dense stages, on extended reals.

  The reference's node features are three message-passing layers and an output projection; its graph features are
  the per-graph mean of the node features. Each layer is the same sequence of host operations: gather the source
  row of every edge, add the edge's features through a linear map and a bias row, sum the messages arriving at each
  node, divide by the node's in-degree raised to at least one, apply a linear map, a bias row and the rectifier.
  A layer is first named as that sequence (`rlayer`), the whole network as three of them and the projection (`rnode`),
  the pooling as its own sequence (`rgraph`); the run's two results are these terms literally. Then each is the
  chain's: the message is regrouped by associativity of addition, the division by the degree becomes the
  multiplication by its reciprocal (the degree is a real number at least one at every node), the linear map with bias
  row and rectifier is the node update, and the last linear map with bias row the output projection. The gather, the
  scatter-additions, the index arithmetic and the slices of the stacked weights are the same host operations on both
  sides and are never opened.
-/
import proofs.«145857_j7275674599908_1_alg».proof.Proof.RefSideA

noncomputable section

namespace Cert.ReferenceIdeal.RefSide

open Cert.ReferenceIdeal Cert.ReferenceIdeal.Gen Idealize.ShloMosaic Idealize.ShloMosaic.ValueIdx Idealize.ShloMosaic.TcCoe
  Idealize.SL.Sem Cert.Gcn Cert.EdgeGnn

/-! ## One layer of the reference -/

/-- The reference's division by the degree is the chain's multiplication by the reciprocal degree. -/
theorem div_eq (a1 : IVec S2x600000 32) (agg : FVec Ideal S100000x128 .f32) :
    Host.divf agg (broadcastInDim S100000x128 ![0, 1] bcast_S100000x1_S100000x128_0_1 (broadcastInDim S100000x1 ![0] bcast_S100000_S100000x1_0 (maximumf (Host.scatterAdd scatter_S100000_S600000x1_S600000_n_0_0_1 (broadcastInDim S100000 ![] bcast_S_S100000 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (broadcastInDim S600000 ![] bcast_S_S600000 (constant (F := Ideal) S_ .f32 0x3F800000#32))) (broadcastInDim S100000 ![] bcast_S_S100000 (constant (F := Ideal) S_ .f32 0x3F800000#32)))))
      = mulf agg (Cert.Chain.invDeg a1) := by
  unfold Cert.Chain.invDeg Cert.Chain.deg Cert.Chain.dstIdx Cert.Chain.colI
  refine div_recip agg _ _ ?hd ?hone _ _ _ _
  case hd =>
    intro i
    have h := @deg_real 100000 600000 S600000x1 32 scatter_S100000_S600000x1_S600000_n_0_0_1 (broadcastInDim S600000x1 ![0] bcast_S600000_S600000x1_0 (shapeCast _ (extractStridedSlice S1x600000 ![1, 0] a1 slices_S2x600000_S1x600000_1_0) shapeCasts_S1x600000_S600000)) bcast_S_S100000 bcast_S_S100000 bcast_S_S600000 i
    exact h
  case hone =>
    intro i
    show broadcastInDim ⟨1, ![100000]⟩ (![] : Fin 0 → Fin 1) _ (constant (F := Ideal) ⟨0, ![]⟩ .f32 0x3F800000#32) i = 1
    rw [splat1_apply, one_word]

/-- One layer of the reference, as the host operations of its program, from its four weight arrays. -/
def rlayer (we : FVec Ideal S16x128 .f32) (be : FVec Ideal S128 .f32) (wn : FVec Ideal S128x128 .f32) (bn : FVec Ideal S128 .f32)
    (a1 : IVec S2x600000 32) (a2 : FVec Ideal S600000x16 .f32) (x : FVec Ideal S100000x128 .f32) : FVec Ideal S100000x128 .f32 :=
  maximumf (addf (Host.dotGeneral dot_S100000x128_S128x128_S100000x128_1_0_0_1_n_n none (Host.divf (Host.scatterAdd scatter_S100000x128_S600000x1_S600000x128_1_0_0_1 (broadcastInDim S100000x128 ![] bcast_S_S100000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (addf (Host.gather gather_S100000x128_S600000x1_S600000x128_1_0_n_n_0_1_1128 x (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 100000#32))) (shapeCast _ (extractStridedSlice S1x600000 ![0, 0] a1 slices_S2x600000_S1x600000_0_0) shapeCasts_S1x600000_S600000)))) (addf (Host.dotGeneral dot_S600000x16_S16x128_S600000x128_1_0_0_1_n_n none a2 we) (broadcastInDim S600000x128 ![0, 1] bcast_S1x128_S600000x128_0_1 (broadcastInDim S1x128 ![1] bcast_S128_S1x128_1 be))))) (broadcastInDim S100000x128 ![0, 1] bcast_S100000x1_S100000x128_0_1 (broadcastInDim S100000x1 ![0] bcast_S100000_S100000x1_0 (maximumf (Host.scatterAdd scatter_S100000_S600000x1_S600000_n_0_0_1 (broadcastInDim S100000 ![] bcast_S_S100000 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (broadcastInDim S600000 ![] bcast_S_S600000 (constant (F := Ideal) S_ .f32 0x3F800000#32))) (broadcastInDim S100000 ![] bcast_S_S100000 (constant (F := Ideal) S_ .f32 0x3F800000#32)))))) wn) (broadcastInDim S100000x128 ![0, 1] bcast_S1x128_S100000x128_0_1 (broadcastInDim S1x128 ![1] bcast_S128_S1x128_1 bn))) (broadcastInDim S100000x128 ![] bcast_S_S100000x128 (constant (F := Ideal) S_ .f32 0x00000000#32))

/-- A layer of the reference is the chain's layer. -/
theorem rlayer_eq (we : FVec Ideal S16x128 .f32) (be : FVec Ideal S128 .f32) (wn : FVec Ideal S128x128 .f32) (bn : FVec Ideal S128 .f32)
    (a1 : IVec S2x600000 32) (a2 : FVec Ideal S600000x16 .f32) (x : FVec Ideal S100000x128 .f32) :
    rlayer we be wn bn a1 a2 x = Cert.Chain.layer we be wn bn a1 a2 x := by
  unfold rlayer Cert.Chain.layer
  rw [msg_eq, div_eq, node_eq]
  rfl

/-! ## The whole reference -/

/-- The reference's node features, as the host operations of its program: three layers and the output projection. -/
def rnode (a0 : FVec Ideal S100000x128 .f32) (a1 : IVec S2x600000 32) (a2 : FVec Ideal S600000x16 .f32)
    (a4 : FVec Ideal S3x128x128 .f32) (a5 : FVec Ideal S3x128 .f32) (a6 : FVec Ideal S3x16x128 .f32) (a7 : FVec Ideal S3x128 .f32)
    (a8 : FVec Ideal S128x128 .f32) (a9 : FVec Ideal S128 .f32) : FVec Ideal S100000x128 .f32 :=
  addf (Host.dotGeneral dot_S100000x128_S128x128_S100000x128_1_0_0_1_n_n none (rlayer (shapeCast _ (extractStridedSlice S1x16x128 ![2, 0, 0] a6 slices_S3x16x128_S1x16x128_2_0_0) shapeCasts_S1x16x128_S16x128) (shapeCast _ (extractStridedSlice S1x128 ![2, 0] a7 slices_S3x128_S1x128_2_0) shapeCasts_S1x128_S128) (shapeCast _ (extractStridedSlice S1x128x128 ![2, 0, 0] a4 slices_S3x128x128_S1x128x128_2_0_0) shapeCasts_S1x128x128_S128x128) (shapeCast _ (extractStridedSlice S1x128 ![2, 0] a5 slices_S3x128_S1x128_2_0) shapeCasts_S1x128_S128) a1 a2 (rlayer (shapeCast _ (extractStridedSlice S1x16x128 ![1, 0, 0] a6 slices_S3x16x128_S1x16x128_1_0_0) shapeCasts_S1x16x128_S16x128) (shapeCast _ (extractStridedSlice S1x128 ![1, 0] a7 slices_S3x128_S1x128_1_0) shapeCasts_S1x128_S128) (shapeCast _ (extractStridedSlice S1x128x128 ![1, 0, 0] a4 slices_S3x128x128_S1x128x128_1_0_0) shapeCasts_S1x128x128_S128x128) (shapeCast _ (extractStridedSlice S1x128 ![1, 0] a5 slices_S3x128_S1x128_1_0) shapeCasts_S1x128_S128) a1 a2 (rlayer (shapeCast _ (extractStridedSlice S1x16x128 ![0, 0, 0] a6 slices_S3x16x128_S1x16x128_0_0_0) shapeCasts_S1x16x128_S16x128) (shapeCast _ (extractStridedSlice S1x128 ![0, 0] a7 slices_S3x128_S1x128_0_0) shapeCasts_S1x128_S128) (shapeCast _ (extractStridedSlice S1x128x128 ![0, 0, 0] a4 slices_S3x128x128_S1x128x128_0_0_0) shapeCasts_S1x128x128_S128x128) (shapeCast _ (extractStridedSlice S1x128 ![0, 0] a5 slices_S3x128_S1x128_0_0) shapeCasts_S1x128_S128) a1 a2 a0))) a8) (broadcastInDim S100000x128 ![0, 1] bcast_S1x128_S100000x128_0_1 (broadcastInDim S1x128 ![1] bcast_S128_S1x128_1 a9))

/-- The reference's node features are the chain's. -/
theorem rnode_eq (a0 : FVec Ideal S100000x128 .f32) (a1 : IVec S2x600000 32) (a2 : FVec Ideal S600000x16 .f32)
    (a4 : FVec Ideal S3x128x128 .f32) (a5 : FVec Ideal S3x128 .f32) (a6 : FVec Ideal S3x16x128 .f32) (a7 : FVec Ideal S3x128 .f32)
    (a8 : FVec Ideal S128x128 .f32) (a9 : FVec Ideal S128 .f32) :
    rnode a0 a1 a2 a4 a5 a6 a7 a8 a9 = Cert.Chain.nodeFeat a0 a1 a2 a4 a5 a6 a7 a8 a9 := by
  unfold rnode Cert.Chain.nodeFeat
  rw [proj_eq, rlayer_eq, rlayer_eq, rlayer_eq]

/-- The reference's per-graph mean of node features `nf`, as the host operations of its program. -/
def rgraph (a3 : IVec S100000 32) (nf : FVec Ideal S100000x128 .f32) : FVec Ideal S64x128 .f32 :=
  Host.divf (Host.scatterAdd scatter_S64x128_S100000x1_S100000x128_1_0_0_1 (broadcastInDim S64x128 ![] bcast_S_S64x128 (constant (F := Ideal) S_ .f32 0x00000000#32)) (broadcastInDim S100000x1 ![0] bcast_S100000_S100000x1_0 a3) nf) (broadcastInDim S64x128 ![0, 1] bcast_S64x1_S64x128_0_1 (broadcastInDim S64x1 ![0] bcast_S64_S64x1_0 (Host.scatterAdd scatter_S64_S100000x1_S100000_n_0_0_1 (broadcastInDim S64 ![] bcast_S_S64 (constant (F := Ideal) S_ .f32 0x00000000#32)) (broadcastInDim S100000x1 ![0] bcast_S100000_S100000x1_0 a3) (broadcastInDim S100000 ![] bcast_S_S100000 (constant (F := Ideal) S_ .f32 0x3F800000#32)))))

/-- The reference's per-graph mean is the chain's: the same host operations. -/
theorem rgraph_eq (a3 : IVec S100000 32) (nf : FVec Ideal S100000x128 .f32) : rgraph a3 nf = Cert.Chain.graphMean a3 nf := by
  unfold rgraph Cert.Chain.graphMean
  rfl

/-! ## The run's two results -/

/-- The first result of the reference's run is the reference's node features of the argument arrays. -/
theorem res0_eq (m : (ℓ : Loc nD τ sig) → Buf (Elt Ideal) ℓ) (c : Dev nD) :
    Cert.ReferenceIdeal.Value.res_main_v104 (F := Ideal) m c = rnode (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.Value.res_main_v104 rnode rlayer
  rfl

/-- The second result of the reference's run is the per-graph mean of the first. -/
theorem res1_eq (m : (ℓ : Loc nD τ sig) → Buf (Elt Ideal) ℓ) (c : Dev nD) :
    Cert.ReferenceIdeal.Value.res_main_v114 (F := Ideal) m c
      = rgraph (m ((c.tc : Thread nD τ).loc main_arg3)) (rnode (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  unfold Cert.ReferenceIdeal.Value.res_main_v114 rgraph rnode rlayer
  rfl

/-- THE NODE FEATURES: the reference's first result is the chain's node features of the ten argument arrays. -/
theorem out0_eq (m : (ℓ : Loc nD τ sig) → Buf (Elt Ideal) ℓ) (c : Dev nD) :
    Cert.ReferenceIdeal.Value.res_main_v104 (F := Ideal) m c = Cert.Chain.nodeFeat (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (res0_eq m c).trans (rnode_eq _ _ _ _ _ _ _ _ _)

/-- THE GRAPH FEATURES: the reference's second result is the chain's per-graph mean of those node features. -/
theorem out1_eq (m : (ℓ : Loc nD τ sig) → Buf (Elt Ideal) ℓ) (c : Dev nD) :
    Cert.ReferenceIdeal.Value.res_main_v114 (F := Ideal) m c
      = Cert.Chain.graphMean (m ((c.tc : Thread nD τ).loc main_arg3)) (Cert.Chain.nodeFeat (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  rw [res1_eq, rgraph_eq, rnode_eq]

end Cert.ReferenceIdeal.RefSide

end
-- ==== Proof.lean ====
/-
  A three-layer message-passing network with edge features on a graph of 100000 nodes and 600000 edges, a linear
  output projection and a per-graph mean of the node features: the kernel program computes the dense stages (the edge
  message, the node update, the projection) in seven tiled kernels and the gather and the scatter-additions on the host;
  the reference is jnp throughout. On extended reals both compute the same two arrays.

  Per layer the kernel forms the message as `(x[row] + ea · We) + be` and the reference as `x[row] + (ea · We + be)`:
  equal because addition of extended reals is associative. The kernel multiplies the summed messages by the reciprocal
  of the in-degree and the reference divides by it: equal on every extended real because the degree, a sum of ones raised to
  at least one, is a real number of absolute value at least one. Everything else — the row gather, the scatter-additions, the
  index arithmetic, the slices of the stacked weights, the rounding of matrix operands (the identity on extended reals), the
  tiling — is the same on both sides or invisible in the value. Both results are stated as one function of the arguments
  (`Cert.Chain.nodeFeat`, `Cert.Chain.graphMean`); the kernel's run is read back segment by segment, the reference's is its
  composed term.
-/
import proofs.«145857_j7275674599908_1_alg».proof.Defs
import proofs.«145857_j7275674599908_1_alg».proof.Proof.Gen.Kernel
import proofs.«145857_j7275674599908_1_alg».proof.Proof.Gen.Kernel.Skeleton
import proofs.«145857_j7275674599908_1_alg».proof.Proof.Gen.Kernel.Launch
import proofs.«145857_j7275674599908_1_alg».proof.Proof.Gen.Kernel.Points
import proofs.«145857_j7275674599908_1_alg».proof.Proof.Gen.Kernel.Frame
import proofs.«145857_j7275674599908_1_alg».proof.Proof.Gen.KernelIdeal
import proofs.«145857_j7275674599908_1_alg».proof.Proof.Gen.KernelIdeal.Skeleton
import proofs.«145857_j7275674599908_1_alg».proof.Proof.Gen.KernelIdeal.Launch
import proofs.«145857_j7275674599908_1_alg».proof.Proof.Gen.KernelIdeal.Points
import proofs.«145857_j7275674599908_1_alg».proof.Proof.Gen.KernelIdeal.Frame
import proofs.«145857_j7275674599908_1_alg».proof.Proof.Gen.ReferenceIdeal
import proofs.«145857_j7275674599908_1_alg».proof.Proof.Gen.Pre_finite_inputs
import proofs.«145857_j7275674599908_1_alg».proof.Proof.Gen.ReferenceIdeal.Run
import proofs.«145857_j7275674599908_1_alg».proof.Proof.Gen.ReferenceIdeal.Read
import proofs.«145857_j7275674599908_1_alg».proof.Proof.KRun
import proofs.«145857_j7275674599908_1_alg».proof.Proof.KWalk
import proofs.«145857_j7275674599908_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the node features at `nodeFeat` and the graph features at `graphMean` of the arguments. -/
theorem algebraic : Cert.algebraic_KernelIdeal_ReferenceIdeal := by
  intro m ρ m' ρ' _ hagree
  refine ⟨fun c => Cert.Chain.nodeFeat (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.Chain.graphMean (m ((c.tc : Thread Cert.KernelIdeal.nD Cert.KernelIdeal.τ).loc Cert.KernelIdeal.main_arg3)) (Cert.Chain.nodeFeat (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))), ?_, ?_⟩
  · exact (θ_run Cert.KernelIdeal.defs _ _).mono
      (fun r h c => ⟨(h c).1.trans (Cert.KernelIdeal.Walk.nodeFeat_eq m ρ c),
        (h c).2.1.trans (Cert.KernelIdeal.Walk.graphFeat_eq m ρ c), (h c).2.2⟩)
      (Cert.KernelIdeal.KRun.run_results m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.RefSide.out0_eq]
      obtain ⟨e0, e1, e2, e3, e4, e5, e6, e7, e8, e9⟩ := hagree c
      rw [e0, e1, e2, e4, e5, e6, e7, e8, e9]
    · rw [Cert.ReferenceIdeal.RefSide.out1_eq]
      obtain ⟨e0, e1, e2, e3, e4, e5, e6, e7, e8, e9⟩ := hagree c
      rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
